-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x256 : Shape := ⟨3, ![2, 16384, 256]⟩
abbrev S2x16384x3 : Shape := ⟨3, ![2, 16384, 3]⟩
abbrev S2x1024x3 : Shape := ⟨3, ![2, 1024, 3]⟩
abbrev S256x256 : Shape := ⟨2, ![256, 256]⟩
abbrev S256 : Shape := ⟨1, ![256]⟩
abbrev S16x3 : Shape := ⟨2, ![16, 3]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel
  bcast_S_S2x16384x3 : S_.BroadcastsInDim S2x16384x3 (![] : Fin 0 → Fin S2x16384x3.rank)
  reducesTo_S2x16384x3_S_d0_1_2 : S2x16384x3.ReducesTo [0, 1, 2] S_
  bcast_S_S2x1024x3 : S_.BroadcastsInDim S2x1024x3 (![] : Fin 0 → Fin S2x1024x3.rank)
  reducesTo_S2x1024x3_S_d0_1_2 : S2x1024x3.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x16 .f32) (main_arg8 : FVec F S1 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S16x3 .f32) (main_arg6 : FVec F S16 .f32) (main_arg7 : FVec F S1x16 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x3 .f32 := Host.absf main_arg5
  let main_cst_8 : FVec F S_ .f32 := constant S_ .f32 0x7F800000#32
  let main_v25 : FVec F S16x3 .f32 := broadcastInDim S16x3 ![] bcast_S_S16x3 main_cst_8
  let main_v26 : IVec S16x3 1 := cmpf .olt main_v24 main_v25
  let main_c_9 : IVec S_ 1 := constantI S_ 1 1#1
  let main_v27 : IVec S_ 1 := (fun x v => Host.reduce IntOp.andi x v reducesTo_S16x3_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S2x16384x256 .f32) (main_arg1 : FVec F S2x16384x3 .f32) (main_arg2 : FVec F S2x1024x3 .f32) (main_arg3 : FVec F S256x256 .f32) (main_arg4 : FVec F S256 .f32) (main_arg5 : FVec F S16x3 .f32) (main_arg6 : FVec F S16 .f32) (main_arg7 : FVec F S1x16 .f32) (main_arg8 : FVec F S1 .f32) : IVec S_ 1 :=
  let main_v0 : FVec F S2x16384x256 .f32 := Host.absf main_arg0
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x16384x3 .f32 := Host.absf main_arg1
  let main_cst_0 : FVec F S_ .f32 := constant S_ .f32 0x7F800000#32
  let main_v5 : FVec F S2x16384x3 .f32 := broadcastInDim S2x16384x3 ![] bcast_S_S2x16384x3 main_cst_0
  let main_v6 : IVec S2x16384x3 1 := cmpf .olt main_v4 main_v5
  let main_c_1 : IVec S_ 1 := constantI S_ 1 1#1
  let main_v7 : IVec S_ 1 := (fun x v => Host.reduce IntOp.andi x v reducesTo_S2x16384x3_S_d0_1_2 h_S_) main_v6 main_c_1
  let main_v8 : IVec S_ 1 := andi main_v3 main_v7
  let main_v9 : FVec F S2x1024x3 .f32 := Host.absf main_arg2
  let main_cst_2 : FVec F S_ .f32 := constant S_ .f32 0x7F800000#32
  let main_v10 : FVec F S2x1024x3 .f32 := broadcastInDim S2x1024x3 ![] bcast_S_S2x1024x3 main_cst_2
  let main_v11 : IVec S2x1024x3 1 := cmpf .olt main_v9 main_v10
  let main_c_3 : IVec S_ 1 := constantI S_ 1 1#1
  let main_v12 : IVec S_ 1 := (fun x v => Host.reduce IntOp.andi x v reducesTo_S2x1024x3_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S2x16384x256 : Shape := ⟨3, ![2, 16384, 256]⟩
abbrev S2x16384x3 : Shape := ⟨3, ![2, 16384, 3]⟩
abbrev S2x1024x3 : Shape := ⟨3, ![2, 1024, 3]⟩
abbrev S256x256 : Shape := ⟨2, ![256, 256]⟩
abbrev S256 : Shape := ⟨1, ![256]⟩
abbrev S16x3 : Shape := ⟨2, ![16, 3]⟩
abbrev S16 : Shape := ⟨1, ![16]⟩
abbrev S1x16 : Shape := ⟨2, ![1, 16]⟩
abbrev S1 : Shape := ⟨1, ![1]⟩
abbrev S1x1024x256 : Shape := ⟨3, ![1, 1024, 256]⟩
abbrev S1x1024x3 : Shape := ⟨3, ![1, 1024, 3]⟩
abbrev S1024x256 : Shape := ⟨2, ![1024, 256]⟩
abbrev S1024x3 : Shape := ⟨2, ![1024, 3]⟩
abbrev S1x256 : Shape := ⟨2, ![1, 256]⟩
abbrev S3x16 : Shape := ⟨2, ![3, 16]⟩
abbrev S1024x16 : Shape := ⟨2, ![1024, 16]⟩
abbrev S16x1 : Shape := ⟨2, ![16, 1]⟩
abbrev S1024x1 : Shape := ⟨2, ![1024, 1]⟩
abbrev S1x1 : Shape := ⟨2, ![1, 1]⟩
abbrev S1024 : Shape := ⟨1, ![1024]⟩
abbrev S3x1024 : Shape := ⟨2, ![3, 1024]⟩
abbrev S1024x1024 : Shape := ⟨2, ![1024, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x16384x256, .f32⟩
  | .hbm, ⟨1, _⟩ => ⟨S2x16384x3, .f32⟩
  | .hbm, ⟨2, _⟩ => ⟨S2x1024x3, .f32⟩
  | .hbm, ⟨3, _⟩ => ⟨S256x256, .f32⟩
  | .hbm, ⟨4, _⟩ => ⟨S256, .f32⟩
  | .hbm, ⟨5, _⟩ => ⟨S16x3, .f32⟩
  | .hbm, ⟨6, _⟩ => ⟨S16, .f32⟩
  | .hbm, ⟨7, _⟩ => ⟨S1x16, .f32⟩
  | .hbm, ⟨8, _⟩ => ⟨S1, .f32⟩
  | .hbm, ⟨9, _⟩ => ⟨S2x16384x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x3, .f32⟩
  | .local _ .vmem, ⟨5, _⟩ => ⟨S1x1024x3, .f32⟩
  | .local _ .vmem, ⟨6, _⟩ => ⟨S256x256, .f32⟩
  | .local _ .vmem, ⟨7, _⟩ => ⟨S256, .f32⟩
  | .local _ .vmem, ⟨8, _⟩ => ⟨S16x3, .f32⟩
  | .local _ .vmem, ⟨9, _⟩ => ⟨S16, .f32⟩
  | .local _ .vmem, ⟨10, _⟩ => ⟨S1x16, .f32⟩
  | .local _ .vmem, ⟨11, _⟩ => ⟨S1, .f32⟩
  | .local _ .vmem, ⟨12, _⟩ => ⟨S1x1024x256, .f32⟩
  | .local _ .vmem, ⟨13, _⟩ => ⟨S1x1024x256, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  inb_S16x3_S16x3_0_0 : ∀ a, (![0, 0] : Fin 2 → Nat) a + S16x3.size a ≤ S16x3.size a
  h_S16x3 : 0 < S16x3.numel
  inb_S16_S16_0 : ∀ a, (![0] : Fin 1 → Nat) a + S16.size a ≤ S16.size a
  h_S16 : 0 < S16.numel
  inb_S1x16_S1x16_0_0 : ∀ a, (![0, 0] : Fin 2 → Nat) a + S1x16.size a ≤ S1x16.size a
  h_S1x16 : 0 < S1x16.numel
  inb_S1_S1_0 : ∀ a, (![0] : Fin 1 → Nat) a + S1.size a ≤ S1.size a
  h_S1 : 0 < S1.numel
  transposes_S256x256_p1_0_S256x256 : S256x256.Transposes [1, 0] S256x256
  shapeCasts_S256_S1x256 : S256.ShapeCasts S1x256
  broadcasts_S1x256_S1024x256 : S1x256.Broadcasts S1024x256
  transposes_S16x3_p1_0_S3x16 : S16x3.Transposes [1, 0] S3x16
  shapeCasts_S16_S1x16 : S16.ShapeCasts S1x16
  broadcasts_S1x16_S1024x16 : S1x16.Broadcasts S1024x16
  transposes_S1x16_p1_0_S16x1 : S1x16.Transposes [1, 0] S16x1
  shapeCasts_S1_S1x1 : S1.ShapeCasts S1x1
  broadcasts_S1x1_S1024x1 : S1x1.Broadcasts S1024x1
  reduces_S1024x3_S1024 : S1024x3.Reduces [1] S1024
  shapeCasts_S1024_S1024x1 : S1024.ShapeCasts S1024x1
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x3_S3x16_S1024x16_1_0_0_1_n_n_wf : DotDims.WF S1024x3 S3x16 S1024x16 [1] [0] [0] [1] [] []
  dot_S1024x16_S16x1_S1024x1_1_0_0_1_n_n_wf : DotDims.WF S1024x16 S16x1 S1024x1 [1] [0] [0] [1] [] []
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S2x16384x256.size a
  hwx0_0 : ∀ i : grid0.Coords, EltTy.bits .f32 = 32 ∨ (Rect.block (s := S2x16384x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x16384x3.size a
  hwx0_1 : ∀ i : grid0.Coords, EltTy.bits .f32 = 32 ∨ (Rect.block (s := S2x16384x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x3.size a ≤ S2x1024x3.size a
  hwx0_2 : ∀ i : grid0.Coords, EltTy.bits .f32 = 32 ∨ (Rect.block (s := S2x1024x3) S1x1024x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x3.size a ≤ S16x3.size a
  hwx0_5 : ∀ i : grid0.Coords, EltTy.bits .f32 = 32 ∨ (Rect.block (s := S16x3) S16x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S2x16384x256.size a
  hwx0_9 : ∀ i : grid0.Coords, EltTy.bits .f32 = 32 ∨ (Rect.block (s := S2x16384x256) S1x1024x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x3_S3x16_S1024x16_1_0_0_1_n_n : DotDims S1024x3 S3x16 S1024x16 where
  lhsContracting := [1]
  rhsContracting := [0]
  lhsNonContracting := [0]
  rhsNonContracting := [1]
  lhsBatch := []
  rhsBatch := []
  wf := dot_S1024x3_S3x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf
def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x16384x256 : Shape := ⟨3, ![2, 16384, 256]⟩
abbrev S2x16384x3 : Shape := ⟨3, ![2, 16384, 3]⟩
abbrev S2x1024x3 : Shape := ⟨3, ![2, 1024, 3]⟩
abbrev S256x256 : Shape := ⟨2, ![256, 256]⟩
abbrev S256 : Shape := ⟨1, ![256]⟩
abbrev S16x3 : Shape := ⟨2, ![16, 3]⟩
abbrev S16 : Shape := ⟨1, ![16]⟩
abbrev S1x16 : Shape := ⟨2, ![1, 16]⟩
abbrev S1 : Shape := ⟨1, ![1]⟩
abbrev S1x1x256 : Shape := ⟨3, ![1, 1, 256]⟩
abbrev S2x16384x16 : Shape := ⟨3, ![2, 16384, 16]⟩
abbrev S1x1x16 : Shape := ⟨3, ![1, 1, 16]⟩
abbrev S_ : Shape := ⟨0, ![]⟩
abbrev S2x16384x1 : Shape := ⟨3, ![2, 16384, 1]⟩
abbrev S1x1x1 : Shape := ⟨3, ![1, 1, 1]⟩
abbrev S2x16384x1x3 : Shape := ⟨4, ![2, 16384, 1, 3]⟩
abbrev S2x1x1024x3 : Shape := ⟨4, ![2, 1, 1024, 3]⟩
abbrev S2x16384x1024x3 : Shape := ⟨4, ![2, 16384, 1024, 3]⟩
abbrev S2x16384x1024 : Shape := ⟨3, ![2, 16384, 1024]⟩
abbrev S2x16384 : Shape := ⟨2, ![2, 16384]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x3, .f32⟩
  | .hbm, ⟨2, _⟩ => ⟨S2x1024x3, .f32⟩
  | .hbm, ⟨3, _⟩ => ⟨S256x256, .f32⟩
  | .hbm, ⟨4, _⟩ => ⟨S256, .f32⟩
  | .hbm, ⟨5, _⟩ => ⟨S16x3, .f32⟩
  | .hbm, ⟨6, _⟩ => ⟨S16, .f32⟩
  | .hbm, ⟨7, _⟩ => ⟨S1x16, .f32⟩
  | .hbm, ⟨8, _⟩ => ⟨S1, .f32⟩
  | .hbm, ⟨9, _⟩ => ⟨S2x16384x256, .f32⟩
  | .hbm, ⟨10, _⟩ => ⟨S1x1x256, .f32⟩
  | .hbm, ⟨11, _⟩ => ⟨S2x16384x256, .f32⟩
  | .hbm, ⟨12, _⟩ => ⟨S2x16384x256, .f32⟩
  | .hbm, ⟨13, _⟩ => ⟨S2x16384x16, .f32⟩
  | .hbm, ⟨14, _⟩ => ⟨S1x1x16, .f32⟩
  | .hbm, ⟨15, _⟩ => ⟨S2x16384x16, .f32⟩
  | .hbm, ⟨16, _⟩ => ⟨S2x16384x16, .f32⟩
  | .hbm, ⟨17, _⟩ => ⟨S_, .f32⟩
  | .hbm, ⟨18, _⟩ => ⟨S2x16384x16, .f32⟩
  | .hbm, ⟨19, _⟩ => ⟨S2x16384x16, .f32⟩
  | .hbm, ⟨20, _⟩ => ⟨S2x16384x16, .f32⟩
  | .hbm, ⟨21, _⟩ => ⟨S2x16384x16, .f32⟩
  | .hbm, ⟨22, _⟩ => ⟨S2x16384x16, .i1⟩
  | .hbm, ⟨23, _⟩ => ⟨S2x16384x16, .f32⟩
  | .hbm, ⟨24, _⟩ => ⟨S2x16384x16, .f32⟩
  | .hbm, ⟨25, _⟩ => ⟨S2x16384x16, .f32⟩
  | .hbm, ⟨26, _⟩ => ⟨S2x16384x16, .f32⟩
  | .hbm, ⟨27, _⟩ => ⟨S2x16384x16, .f32⟩
  | .hbm, ⟨28, _⟩ => ⟨S2x16384x16, .f32⟩
  | .hbm, ⟨29, _⟩ => ⟨S2x16384x16, .f32⟩
  | .hbm, ⟨30, _⟩ => ⟨S2x16384x16, .f32⟩
  | .hbm, ⟨31, _⟩ => ⟨S2x16384x1, .f32⟩
  | .hbm, ⟨32, _⟩ => ⟨S1x1x1, .f32⟩
  | .hbm, ⟨33, _⟩ => ⟨S2x16384x1, .f32⟩
  | .hbm, ⟨34, _⟩ => ⟨S2x16384x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S_, .f32⟩
  | .hbm, ⟨44, _⟩ => ⟨S2x16384x1, .i1⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .i1⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S_, .f32⟩
  | .hbm, ⟨55, _⟩ => ⟨S2x16384x1, .f32⟩
  | .hbm, ⟨56, _⟩ => ⟨S2x16384x1, .i1⟩
  | .hbm, ⟨57, _⟩ => ⟨S_, .f32⟩
  | .hbm, ⟨58, _⟩ => ⟨S2x16384x1, .f32⟩
  | .hbm, ⟨59, _⟩ => ⟨S2x16384x1, .f32⟩
  | .hbm, ⟨60, _⟩ => ⟨S2x16384x1x3, .f32⟩
  | .hbm, ⟨61, _⟩ => ⟨S2x1x1024x3, .f32⟩
  | .hbm, ⟨62, _⟩ => ⟨S2x16384x1024x3, .f32⟩
  | .hbm, ⟨63, _⟩ => ⟨S2x16384x1024x3, .f32⟩
  | .hbm, ⟨64, _⟩ => ⟨S2x16384x1024x3, .f32⟩
  | .hbm, ⟨65, _⟩ => ⟨S2x16384x1024x3, .f32⟩
  | .hbm, ⟨66, _⟩ => ⟨S_, .f32⟩
  | .hbm, ⟨67, _⟩ => ⟨S2x16384x1024, .f32⟩
  | .hbm, ⟨68, _⟩ => ⟨S_, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | .hbm, ⟨72, _⟩ => ⟨S_, .f32⟩
  | .hbm, ⟨73, _⟩ => ⟨S2x16384, .f32⟩
  | .hbm, ⟨74, _⟩ => ⟨S2x16384x1, .f32⟩
  | .hbm, ⟨75, _⟩ => ⟨S2x16384x1, .f32⟩
  | .hbm, ⟨76, _⟩ => ⟨S2x16384x1, .f32⟩
  | .hbm, ⟨77, _⟩ => ⟨S2x16384x1, .f32⟩
  | .hbm, ⟨78, _⟩ => ⟨S_, .f32⟩
  | .hbm, ⟨79, _⟩ => ⟨S2x16384x1, .f32⟩
  | .hbm, ⟨80, _⟩ => ⟨S2x16384x1, .f32⟩
  | .hbm, ⟨81, _⟩ => ⟨S_, .f32⟩
  | .hbm, ⟨82, _⟩ => ⟨S2x16384x1, .f32⟩
  | .hbm, ⟨83, _⟩ => ⟨S2x16384x1, .f32⟩
  | .hbm, ⟨84, _⟩ => ⟨S2x16384x256, .f32⟩
  | .hbm, ⟨85, _⟩ => ⟨S2x16384x256, .f32⟩
  | .hbm, ⟨86, _⟩ => ⟨S2x16384x256, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v13 : Ref sig .tc := ⟨.hbm, 42, rfl⟩
abbrev main_cst_1 : Ref sig .tc := ⟨.hbm, 43, rfl⟩
abbrev main_call2_v0 : Ref sig .tc := ⟨.hbm, 44, rfl⟩
abbrev main_call2_v1 : Ref sig .tc := ⟨.hbm, 45, rfl⟩
abbrev main_call2_call0_v0 : Ref sig .tc := ⟨.hbm, 46, rfl⟩
abbrev main_call2_v2 : Ref sig .tc := ⟨.hbm, 47, rfl⟩
abbrev main_call2_cst : Ref sig .tc := ⟨.hbm, 48, rfl⟩
abbrev main_call2_v3 : Ref sig .tc := ⟨.hbm, 49, rfl⟩
abbrev main_call2_v4 : Ref sig .tc := ⟨.hbm, 50, rfl⟩
abbrev main_call2_cst_0 : Ref sig .tc := ⟨.hbm, 51, rfl⟩
abbrev main_call2_call1_v0 : Ref sig .tc := ⟨.hbm, 52, rfl⟩
abbrev main_call2_v5 : Ref sig .tc := ⟨.hbm, 53, rfl⟩
abbrev main_call2_cst_1 : Ref sig .tc := ⟨.hbm, 54, rfl⟩
abbrev main_call2_v6 : Ref sig .tc := ⟨.hbm, 55, rfl⟩
abbrev main_call2_v7 : Ref sig .tc := ⟨.hbm, 56, rfl⟩
abbrev main_call2_cst_2 : Ref sig .tc := ⟨.hbm, 57, rfl⟩
abbrev main_call2_call2_v0 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_4 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_v31 : Ref sig .tc := ⟨.hbm, 80, rfl⟩
abbrev main_cst_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x16384x256_0_1_2 : S1x1x256.BroadcastsInDim S2x16384x256 (![0, 1, 2] : Fin 3 → Fin S2x16384x256.rank)
  bcast_S16_S1x1x16_2 : S16.BroadcastsInDim S1x1x16 (![2] : Fin 1 → Fin S1x1x16.rank)
  bcast_S1x1x16_S2x16384x16_0_1_2 : S1x1x16.BroadcastsInDim S2x16384x16 (![0, 1, 2] : Fin 3 → Fin S2x16384x16.rank)
  bcast_S_S2x16384x16 : S_.BroadcastsInDim S2x16384x16 (![] : Fin 0 → Fin S2x16384x16.rank)
  bcast_S1_S1x1x1_2 : S1.BroadcastsInDim S1x1x1 (![2] : Fin 1 → Fin S1x1x1.rank)
  bcast_S1x1x1_S2x16384x1_0_1_2 : S1x1x1.BroadcastsInDim S2x16384x1 (![0, 1, 2] : Fin 3 → Fin S2x16384x1.rank)
  bcast_S_S2x16384x1 : S_.BroadcastsInDim S2x16384x1 (![] : Fin 0 → Fin S2x16384x1.rank)
  bcast_S2x16384x3_S2x16384x1x3_0_1_3 : S2x16384x3.BroadcastsInDim S2x16384x1x3 (![0, 1, 3] : Fin 3 → Fin S2x16384x1x3.rank)
  bcast_S2x1024x3_S2x1x1024x3_0_2_3 : S2x1024x3.BroadcastsInDim S2x1x1024x3 (![0, 2, 3] : Fin 3 → Fin S2x1x1024x3.rank)
  bcast_S2x16384x1x3_S2x16384x1024x3_0_1_2_3 : S2x16384x1x3.BroadcastsInDim S2x16384x1024x3 (![0, 1, 2, 3] : Fin 4 → Fin S2x16384x1024x3.rank)
  bcast_S2x1x1024x3_S2x16384x1024x3_0_1_2_3 : S2x1x1024x3.BroadcastsInDim S2x16384x1024x3 (![0, 1, 2, 3] : Fin 4 → Fin S2x16384x1024x3.rank)
  reducesTo_S2x16384x1024x3_S2x16384x1024_d3 : S2x16384x1024x3.ReducesTo [3] S2x16384x1024
  h_S_ : 0 < S_.numel
  bcast_S_S2x16384x1024 : S_.BroadcastsInDim S2x16384x1024 (![] : Fin 0 → Fin S2x16384x1024.rank)
  reducesTo_S2x16384x1024_S2x16384_d2 : S2x16384x1024.ReducesTo [2] S2x16384
  bcast_S2x16384_S2x16384x1_0_1 : S2x16384.BroadcastsInDim S2x16384x1 (![0, 1] : Fin 2 → Fin S2x16384x1.rank)
  bcast_S2x16384x1_S2x16384x256_0_1_2 : S2x16384x1.BroadcastsInDim S2x16384x256 (![0, 1, 2] : Fin 3 → Fin S2x16384x256.rank)
  dot_S2x16384x256_S256x256_S2x16384x256_2_1_01_0_n_n_wf : DotDims.WF S2x16384x256 S256x256 S2x16384x256 [2] [1] [0, 1] [0] [] []
  dot_S2x16384x3_S16x3_S2x16384x16_2_1_01_0_n_n_wf : DotDims.WF S2x16384x3 S16x3 S2x16384x16 [2] [1] [0, 1] [0] [] []
  dot_S2x16384x16_S1x16_S2x16384x1_2_1_01_0_n_n_wf : DotDims.WF S2x16384x16 S1x16 S2x16384x1 [2] [1] [0, 1] [0] [] []

variable [Facts₀]

def dot_S2x16384x256_S256x256_S2x16384x256_2_1_01_0_n_n : DotDims S2x16384x256 S256x256 S2x16384x256 where
  lhsContracting := [2]
  rhsContracting := [1]
  lhsNonContracting := [0, 1]
  rhsNonContracting := [0]
  lhsBatch := []
  rhsBatch := []
  wf := dot_S2x16384x256_S256x256_S2x16384x256_2_1_01_0_n_n_wf
def dot_S2x16384x3_S16x3_S2x16384x16_2_1_01_0_n_n : DotDims S2x16384x3 S16x3 S2x16384x16 where
  lhsContracting := [2]
  rhsContracting := [1]
  lhsNonContracting := [0, 1]
  rhsNonContracting := [0]
  lhsBatch := []
  rhsBatch := []
  wf := dot_S2x16384x3_S16x3_S2x16384x16_2_1_01_0_n_n_wf
def dot_S2x16384x16_S1x16_S2x16384x1_2_1_01_0_n_n : DotDims S2x16384x16 S1x16 S2x16384x1 where
  lhsContracting := [2]
  rhsContracting := [1]
  lhsNonContracting := [0, 1]
  rhsNonContracting := [0]
  lhsBatch := []
  rhsBatch := []
  wf := dot_S2x16384x16_S1x16_S2x16384x1_2_1_01_0_n_n_wf

class Facts : Prop extends Facts₀ where

variable [Facts]
-- ==== Proof.Spec.lean ====
/-
  The specification: what both programs compute, as one function of the nine argument arrays, entry by entry, on the
  extended reals.

  Everything about one query point depends on three rows: its feature row xr (256 numbers), its coordinates qr (3 numbers)
  and the atoms of its batch, at (1024 rows of 3 numbers). For output feature o the result is sin (ω · pre(o)), where
    pre(o)   = Σₖ xr[k] · W[o, k] + bias[o]                      (the linear layer),
    hid(j)   = Σ_d qr[d] · fw1[j, d] + fb1[j]                     (the frequency net's hidden layer),
    lsc      = Σⱼ softplus (hid(j)) · fw2[0, j] + fb2[0]          (its output),
    dist2(a) = Σ_d (qr[d] − at[a, d])²                            (squared distance from the query to atom a),
    mind     = minₐ √(max (dist2(a), ε))                          (distance to the nearest atom),
    ω        = 30 · (1 + nn (clip lsc) · exp (−mind)),
  with clip the clamp to [0, 5] and nn the replacement of the two infinities by the largest finite f32 values.
  The result array at (b, n, o) is that function of x[b, n, ·], q[b, n, ·] and atoms[b, ·, ·].
  Float constants are kept as their f32 patterns: the same pattern denotes the same extended real wherever it occurs.
-/
import Idealize.ShloMosaic.Lib.ValueIdx
import Idealize.ShloMosaic.PureOps.Ideal.Laws

noncomputable section

open scoped BigOperators

namespace Cert.Spec

open Idealize.ShloMosaic Idealize.ShloMosaic.ValueIdx

/-- The f32 pattern of 0. -/
abbrev Z : EReal := Ideal.ofBits .f32 0x00000000#32
/-- The f32 pattern of 1. -/
abbrev ONE : EReal := Ideal.ofBits .f32 0x3F800000#32
/-- The f32 pattern of 2. -/
abbrev TWO : EReal := Ideal.ofBits .f32 0x40000000#32
/-- The f32 pattern of 5. -/
abbrev FIVE : EReal := Ideal.ofBits .f32 0x40A00000#32
/-- The f32 pattern of 30. -/
abbrev THIRTY : EReal := Ideal.ofBits .f32 0x41F00000#32
/-- The f32 pattern nearest 1e-4. -/
abbrev EPS : EReal := Ideal.ofBits .f32 0x38D1B717#32
/-- The f32 pattern of +inf. -/
abbrev PINF : EReal := Ideal.ofBits .f32 0x7F800000#32
/-- The f32 pattern of -inf. -/
abbrev NINF : EReal := Ideal.ofBits .f32 0xFF800000#32
/-- The largest finite f32. -/
abbrev MAXF : EReal := Ideal.ofBits .f32 0x7F7FFFFF#32
/-- The least finite f32. -/
abbrev MINF : EReal := Ideal.ofBits .f32 0xFF7FFFFF#32

/-- softplus y = log (1 + eʸ), computed stably as max (y, 0) + log1p (exp (−|y − 0|)); the guard "y − 0 is not itself"
    never fires on the extended reals, and is kept as written. -/
def softplus (y : EReal) : EReal :=
  Scalar.select (Ideal.cmp .une (y - Z) (y - Z)) (y + Z)
    (max y Z + Ideal.log1p (Ideal.exp (-(max (y - Z) (-(y - Z))))))

/-- The clamp to [0, 5]. -/
def clip (y : EReal) : EReal := min FIVE (max Z y)

/-- First step of nan_to_num: a value that is not itself becomes 0 (never, on the extended reals). -/
def nn1 (x : EReal) : EReal := Scalar.select (Ideal.cmp .une x x) Z x
/-- Second step: +inf becomes the largest finite f32. -/
def nn2 (w : EReal) : EReal := Scalar.select (Ideal.cmp .oeq w PINF) MAXF w
/-- Third step: -inf becomes the least finite f32. -/
def nn3 (w : EReal) : EReal := Scalar.select (Ideal.cmp .oeq w NINF) MINF w
/-- nan_to_num with nan = 0. -/
def nn (x : EReal) : EReal := nn3 (nn2 (nn1 x))

/-- The arrays' literal shapes. -/
abbrev SX : Shape := ⟨3, ![2, 16384, 256]⟩
abbrev SQ : Shape := ⟨3, ![2, 16384, 3]⟩
abbrev SA : Shape := ⟨3, ![2, 1024, 3]⟩
abbrev SW : Shape := ⟨2, ![256, 256]⟩
abbrev SB : Shape := ⟨1, ![256]⟩
abbrev SFW1 : Shape := ⟨2, ![16, 3]⟩
abbrev SFB1 : Shape := ⟨1, ![16]⟩
abbrev SFW2 : Shape := ⟨2, ![1, 16]⟩
abbrev SFB2 : Shape := ⟨1, ![1]⟩

/-! ## One query point, from its rows -/

section Row
variable (xr : Fin 256 → EReal) (qr : Fin 3 → EReal) (atoms : Fin 1024 → Fin 3 → EReal) (W : SW.Idx → EReal) (bias : SB.Idx → EReal)
  (fw1 : SFW1.Idx → EReal) (fb1 : SFB1.Idx → EReal) (fw2 : SFW2.Idx → EReal) (fb2 : SFB2.Idx → EReal)

/-- The linear layer's output feature o of a feature row. -/
def preR (o : Fin 256) : EReal := (∑ k : Fin 256, xr k * W (ix2 o k)) + bias (ix1 o)

/-- The frequency net's hidden pre-activation j of a coordinate row. -/
def hidR (j : Fin 16) : EReal := (∑ d : Fin 3, qr d * fw1 (ix2 j d)) + fb1 (ix1 j)

/-- The frequency net's output of a coordinate row. -/
def lscR : EReal := (∑ j : Fin 16, softplus (hidR qr fw1 fb1 j) * fw2 (ix2 (0 : Fin 1) j)) + fb2 (ix1 (0 : Fin 1))

/-- The squared distance between two points: the sum over the three coordinates of the squared differences. -/
def dist2R (ar : Fin 3 → EReal) : EReal := Z + ∑ d : Fin 3, (qr d - ar d) * (qr d - ar d)

/-- The distance from a point to its nearest atom: the minimum over the atoms, from +inf, of √(max (dist2, ε)). -/
def mindR : EReal :=
  (Finset.univ : Finset (Fin 1024)).fold min PINF (fun a => Ideal.sqrt (max (dist2R qr (atoms a)) EPS))

/-- The local frequency ω = 30 · (1 + scale · exp (−mind)). -/
def omegaR : EReal := THIRTY * (ONE + nn (clip (lscR qr fw1 fb1 fw2 fb2)) * Ideal.exp (-(mindR qr atoms)))

/-- The result for one query point and output feature o: sin (ω · pre(o)). -/
def outR (o : Fin 256) : EReal := Ideal.sin (omegaR qr atoms fw1 fb1 fw2 fb2 * preR xr W bias o)

end Row

/-! ## The arrays -/

variable (x : SX.Idx → EReal) (q : SQ.Idx → EReal) (ac : SA.Idx → EReal) (W : SW.Idx → EReal) (bias : SB.Idx → EReal)
  (fw1 : SFW1.Idx → EReal) (fb1 : SFB1.Idx → EReal) (fw2 : SFW2.Idx → EReal) (fb2 : SFB2.Idx → EReal)

/-- The linear layer x · Wᵀ + bias at (b, n, o). -/
def pre (b : Fin 2) (n : Fin 16384) (o : Fin 256) : EReal := preR (fun k => x (ix3 b n k)) W bias o

/-- The frequency net's hidden pre-activation at (b, n, j). -/
def hid (b : Fin 2) (n : Fin 16384) (j : Fin 16) : EReal := hidR (fun d => q (ix3 b n d)) fw1 fb1 j

/-- The frequency net's output at (b, n). -/
def lsc (b : Fin 2) (n : Fin 16384) : EReal := lscR (fun d => q (ix3 b n d)) fw1 fb1 fw2 fb2

/-- The squared distance from query n to atom a of batch b. -/
def dist2 (b : Fin 2) (n : Fin 16384) (a : Fin 1024) : EReal := dist2R (fun d => q (ix3 b n d)) (fun d => ac (ix3 b a d))

/-- The distance from query n of batch b to its nearest atom. -/
def mind (b : Fin 2) (n : Fin 16384) : EReal := mindR (fun d => q (ix3 b n d)) (fun a d => ac (ix3 b a d))

/-- The local frequency ω(b, n). -/
def omega (b : Fin 2) (n : Fin 16384) : EReal :=
  omegaR (fun d => q (ix3 b n d)) (fun a d => ac (ix3 b a d)) fw1 fb1 fw2 fb2

/-- The result: sin (ω · pre), entry by entry. -/
def G (i : SX.Idx) : EReal :=
  outR (fun k => x (ix3 (i 0) (i 1) k)) (fun d => q (ix3 (i 0) (i 1) d)) (fun a d => ac (ix3 (i 0) a d)) W bias fw1 fb1 fw2 fb2 (i 2)

/-- The result is sin (ω(b, n) · pre(b, n, o)). -/
theorem G_eq (i : SX.Idx) :
    G x q ac W bias fw1 fb1 fw2 fb2 i
      = Ideal.sin (omega q ac fw1 fb1 fw2 fb2 (i 0) (i 1) * pre x W bias (i 0) (i 1) (i 2)) := rfl

/-- The local frequency, spelled out. -/
theorem omega_eq (b : Fin 2) (n : Fin 16384) :
    omega q ac fw1 fb1 fw2 fb2 b n
      = THIRTY * (ONE + nn (clip (lsc q fw1 fb1 fw2 fb2 b n)) * Ideal.exp (-(mind q ac b n))) := rfl

/-- The nearest-atom distance, spelled out. -/
theorem mind_eq (b : Fin 2) (n : Fin 16384) :
    mind q ac b n = (Finset.univ : Finset (Fin 1024)).fold min PINF (fun a => Ideal.sqrt (max (dist2 q ac b n a) EPS)) := rfl

/-- The squared distance, spelled out. -/
theorem dist2_eq (b : Fin 2) (n : Fin 16384) (a : Fin 1024) :
    dist2 q ac b n a = Z + ∑ d : Fin 3, (q (ix3 b n d) - ac (ix3 b a d)) * (q (ix3 b n d) - ac (ix3 b a d)) := rfl

/-- The frequency net's output, spelled out. -/
theorem lsc_eq (b : Fin 2) (n : Fin 16384) :
    lsc q fw1 fb1 fw2 fb2 b n
      = (∑ j : Fin 16, softplus (hid q fw1 fb1 b n j) * fw2 (ix2 (0 : Fin 1) j)) + fb2 (ix1 (0 : Fin 1)) := rfl

/-- The hidden layer, spelled out. -/
theorem hid_eq (b : Fin 2) (n : Fin 16384) (j : Fin 16) :
    hid q fw1 fb1 b n j = (∑ d : Fin 3, q (ix3 b n d) * fw1 (ix2 j d)) + fb1 (ix1 j) := rfl

/-- The linear layer, spelled out. -/
theorem pre_eq (b : Fin 2) (n : Fin 16384) (o : Fin 256) :
    pre x W bias b n o = (∑ k : Fin 256, x (ix3 b n k) * W (ix2 o k)) + bias (ix1 o) := rfl

/-- On the extended reals 0 − a = −a, with 0 written as its f32 pattern. -/
theorem Z_sub (a : EReal) : Z - a = -a := by
  show Ideal.ofBits .f32 0x00000000#32 - a = -a
  rw [Ideal.ofBits_zero_f32, sub_eq_add_neg, zero_add]

end Cert.Spec

end
-- ==== Proof.Algebra.lean ====
/-
  The one algebraic law that joins the two programs: for points with real coordinates,
    |q|² + |a|² − 2 q·a = Σ_d (q_d − a_d)²,
  read on the extended reals with the constants 0 and 2 written as their f32 patterns. It fails at the infinities
  (∞ − ∞), which is why the coordinates are asked to be real numbers.
-/
import proofs.«155118_j31817117728925_1_alg».proof.Proof.Spec

noncomputable section

open scoped BigOperators

namespace Cert.Algebra

open Idealize.ShloMosaic Cert.Spec

/-- The f32 pattern 0x40000000 is the real number 2. -/
theorem two_eq : TWO = ((2 : ℝ) : EReal) := by
  show Ideal.ofBits .f32 0x40000000#32 = ((2 : ℝ) : EReal)
  simp [Ideal.ofBits, Ideal.ieee, -EReal.coe_mul]
  norm_num

/-- The f32 pattern of 0 is the real number 0. -/
theorem zero_eq : Z = ((0 : ℝ) : EReal) := by
  show Ideal.ofBits .f32 0x00000000#32 = ((0 : ℝ) : EReal)
  rw [Ideal.ofBits_zero_f32]; rfl

/-- Squared norms and the inner product give the squared distance, for real coordinates. -/
theorem norms_sub_two_dot (qr ar : Fin 3 → EReal) (hq : ∀ d, ∃ r : ℝ, qr d = (r : EReal)) (ha : ∀ d, ∃ r : ℝ, ar d = (r : EReal)) :
    ((∑ d : Fin 3, qr d * qr d) + (∑ d : Fin 3, ar d * ar d)) - TWO * (∑ d : Fin 3, qr d * ar d) = dist2R qr ar := by
  choose u hu using hq
  choose v hv using ha
  unfold dist2R
  rw [two_eq, zero_eq]
  simp only [Fin.sum_univ_three, hu, hv]
  norm_cast
  ring

end Cert.Algebra

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibMinReduce.lean ====
/-
  Three readings at an index that hold for any shapes of their kind.

  A vector of length a viewed as a column [a, 1] has at (i, 0) the vector's entry i; a column [a, 1] copied along the
  rows of an [a, b] array has at (i, j) the column's entry i; and a minimum taken over one axis of an array of
  extended reals is, at each index of the result, the fold of `min`, started from the accumulator's value, over the
  entries along that axis.
-/
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.ValueMinReduce

open Idealize.ShloMosaic Idealize.ShloMosaic.ValueIdx

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A minimum-reduction of extended reals over one axis reads, at a result index, the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.ValueMinReduce

end
-- ==== Proof.KernelPay.lean ====
/-
  The kernel body's values read at an entry, on the extended reals.

  One grid point's body loads a block of 1024 query rows (features [1, 1024, 256], coordinates [1, 1024, 3]), the
  1024 atoms of the batch ([1, 1024, 3]) and the whole weights, and stores a [1, 1024, 256] block. Read at row r and
  column o, each value it computes is the specification's function of row r of the blocks.
-/
import proofs.«155118_j31817117728925_1_alg».proof.Proof.Gen.KernelIdeal.Skeleton
import proofs.«155118_j31817117728925_1_alg».proof.Proof.Spec
import proofs.«155118_j31817117728925_1_alg».proof.Proof.Algebra
import proofs.«155118_j31817117728925_1_alg».proof.Proof.LibPlainDot
import proofs.«155118_j31817117728925_1_alg».proof.Proof.LibKeepdims
import proofs.«155118_j31817117728925_1_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelPay

open Cert.KernelIdeal Cert.KernelIdeal.Gen Idealize.ShloMosaic Idealize.ShloMosaic.ValueIdx Cert.Spec

/-- The query block viewed as a matrix: row r, coordinate d of the block. -/
theorem pay2_apply (v2 : Vec Ideal S1x1024x3 .f32) (r : Fin 1024) (d : Fin 3) :
    k0_pay2 (F := Ideal) v2 (ix2 r d) = v2 (ix3 (0 : Fin 1) r d) := by
  unfold k0_pay2
  exact shapeCast_1ab_ab_apply v2 _ r d

/-- The atom block viewed as a matrix: atom a, coordinate d of the block. -/
theorem pay3_apply (v4 : Vec Ideal S1x1024x3 .f32) (a : Fin 1024) (d : Fin 3) :
    k0_pay3 (F := Ideal) v4 (ix2 a d) = v4 (ix3 (0 : Fin 1) a d) := by
  unfold k0_pay3
  exact shapeCast_1ab_ab_apply v4 _ a d

/-- The linear layer of the block: row r, feature o is the specification's linear layer of row r. -/
theorem pay4_apply (v0 : Vec Ideal S1x1024x256 .f32) (v6 : Vec Ideal S256x256 .f32) (v7 : Vec Ideal S256 .f32)
    (r : Fin 1024) (o : Fin 256) :
    k0_pay4 (F := Ideal) v0 v6 v7 (ix2 r o) = preR (fun k => v0 (ix3 (0 : Fin 1) r k)) v6 v7 o := by
  unfold k0_pay4 preR
  try dsimp only
  rw [addf_apply]
  refine congrArg₂ (· + ·) ?_ ?_
  · refine (Cert.Lib.PlainDot.matmul_zero_apply none _ _ r o).trans ?_
    refine Finset.sum_congr rfl fun k _ => ?_
    rw [shapeCast_1ab_ab_apply, transpose_ix2_apply]
  · rw [broadcastTo_1b_ab_apply, shapeCast_a_1a_apply]

/-- The kernel's softplus, with its guard spelled "ordered and unequal" and its negation spelled 0 − |·|, is the
    specification's. -/
theorem softplusK_eq (y : EReal) :
    Scalar.select (Ideal.cmp .one (y - Z) (y - Z)) (y + Z)
        (max y Z + Ideal.log1p (Ideal.exp (Z - max (y - Z) (-(y - Z))))) = softplus y := by
  unfold softplus
  rw [Z_sub]
  rfl

/-! ## The first payload of the frequency net, cut in two -/

/-- The hidden layer's pre-activation: the coordinate rows times fw1ᵀ, plus fb1. -/
def hidV (v2 : Vec Ideal S1x1024x3 .f32) (v8 : Vec Ideal S16x3 .f32) (v9 : Vec Ideal S16 .f32) : FVec Ideal S1024x16 .f32 :=
  have v17 : FVec Ideal S3x16 .f32 := transpose S3x16 [1, 0] v8 Facts₀.transposes_S16x3_p1_0_S3x16
  have cst_17 : FVec Ideal S1024x16 .f32 := constant S1024x16 .f32 0x00000000#32
  have v18 : FVec Ideal S1024x16 .f32 := matmul dot_S1024x3_S3x16_S1024x16_1_0_0_1_n_n none (k0_pay2 v2) v17 cst_17
  have v19 : FVec Ideal S1x16 .f32 := shapeCast S1x16 v9 Facts₀.shapeCasts_S16_S1x16
  have v20 : FVec Ideal S1024x16 .f32 := broadcastTo S1024x16 v19 Facts₀.broadcasts_S1x16_S1024x16
  have v21 : FVec Ideal S1024x16 .f32 := addf v18 v20
  v21

/-- softplus, entry by entry, as the body spells it. -/
def spV (v21 : FVec Ideal S1024x16 .f32) : FVec Ideal S1024x16 .f32 :=
  have cst_18 : Ideal .f32 := Scalar.ofBits .f32 0x00000000#32
  have v22 : FVec Ideal S1024x16 .f32 := broadcast S1024x16 cst_18
  have v23 : FVec Ideal S1024x16 .f32 := maximumf v21 v22
  have v24 : FVec Ideal S1024x16 .f32 := broadcast S1024x16 cst_18
  have v25 : FVec Ideal S1024x16 .f32 := subf v21 v24
  have v26 : IVec S1024x16 1 := cmpf .one v25 v25
  have v27 : FVec Ideal S1024x16 .f32 := broadcast S1024x16 cst_18
  have v28 : FVec Ideal S1024x16 .f32 := addf v21 v27
  have v29 : FVec Ideal S1024x16 .f32 := absf v25
  have cst_19 : Ideal .f32 := Scalar.ofBits .f32 0x00000000#32
  have v30 : FVec Ideal S1024x16 .f32 := broadcast S1024x16 cst_19
  have v31 : FVec Ideal S1024x16 .f32 := subf v30 v29
  have v32 : FVec Ideal S1024x16 .f32 := exp v31
  have v33 : FVec Ideal S1024x16 .f32 := log1p v32
  have v34 : FVec Ideal S1024x16 .f32 := addf v23 v33
  have v35 : FVec Ideal S1024x16 .f32 := select v26 v28 v34
  v35

theorem pay5_split (v2 : Vec Ideal S1x1024x3 .f32) (v8 : Vec Ideal S16x3 .f32) (v9 : Vec Ideal S16 .f32) :
    k0_pay5 (F := Ideal) v2 v8 v9 = spV (hidV v2 v8 v9) := rfl

/-- The hidden pre-activation at row r, unit j. -/
theorem hidV_apply (v2 : Vec Ideal S1x1024x3 .f32) (v8 : Vec Ideal S16x3 .f32) (v9 : Vec Ideal S16 .f32)
    (r : Fin 1024) (j : Fin 16) :
    hidV v2 v8 v9 (ix2 r j) = hidR (fun d => v2 (ix3 (0 : Fin 1) r d)) v8 v9 j := by
  unfold hidV hidR
  try dsimp only
  rw [addf_apply]
  refine congrArg₂ (· + ·) ?_ ?_
  · refine (Cert.Lib.PlainDot.matmul_zero_apply none _ _ r j).trans ?_
    refine Finset.sum_congr rfl fun d _ => ?_
    rw [pay2_apply, transpose_ix2_apply]
  · rw [broadcastTo_1b_ab_apply, shapeCast_a_1a_apply]

/-- softplus at an entry. -/
theorem spV_apply (v21 : FVec Ideal S1024x16 .f32) (i : S1024x16.Idx) : spV v21 i = softplus (v21 i) :=
  softplusK_eq (v21 i)

/-- The frequency net's hidden layer after softplus: row r, unit j. -/
theorem pay5_apply (v2 : Vec Ideal S1x1024x3 .f32) (v8 : Vec Ideal S16x3 .f32) (v9 : Vec Ideal S16 .f32)
    (r : Fin 1024) (j : Fin 16) :
    k0_pay5 (F := Ideal) v2 v8 v9 (ix2 r j) = softplus (hidR (fun d => v2 (ix3 (0 : Fin 1) r d)) v8 v9 j) := by
  rw [pay5_split, spV_apply, hidV_apply]

/-! ## The second payload, cut into its four stretches -/

/-- The frequency net's output column: the hidden row times fw2ᵀ, plus fb2. -/
def lscV (v10 : Vec Ideal S1x16 .f32) (v11 : Vec Ideal S1 .f32) (v35 : FVec Ideal S1024x16 .f32) : FVec Ideal S1024x1 .f32 :=
  have v36 : FVec Ideal S16x1 .f32 := transpose S16x1 [1, 0] v10 Facts₀.transposes_S1x16_p1_0_S16x1
  have cst_20 : FVec Ideal S1024x1 .f32 := constant S1024x1 .f32 0x00000000#32
  have v37 : FVec Ideal S1024x1 .f32 := matmul dot_S1024x16_S16x1_S1024x1_1_0_0_1_n_n none v35 v36 cst_20
  have v38 : FVec Ideal S1x1 .f32 := shapeCast S1x1 v11 Facts₀.shapeCasts_S1_S1x1
  have v39 : FVec Ideal S1024x1 .f32 := broadcastTo S1024x1 v38 Facts₀.broadcasts_S1x1_S1024x1
  have v40 : FVec Ideal S1024x1 .f32 := addf v37 v39
  v40

/-- The clamp to [0, 5] and nan_to_num, entry by entry. -/
def nnV (v40 : FVec Ideal S1024x1 .f32) : FVec Ideal S1024x1 .f32 :=
  have cst_21 : Ideal .f32 := Scalar.ofBits .f32 0x00000000#32
  have cst_22 : Ideal .f32 := Scalar.ofBits .f32 0x40A00000#32
  have v41 : FVec Ideal S1024x1 .f32 := broadcast S1024x1 cst_21
  have v42 : FVec Ideal S1024x1 .f32 := maximumf v41 v40
  have v43 : FVec Ideal S1024x1 .f32 := broadcast S1024x1 cst_22
  have v44 : FVec Ideal S1024x1 .f32 := minimumf v43 v42
  have cst_23 : Ideal .f32 := Scalar.ofBits .f32 0x00000000#32
  have v45 : IVec S1024x1 1 := cmpf .one v44 v44
  have v46 : FVec Ideal S1024x1 .f32 := broadcast S1024x1 cst_23
  have v47 : FVec Ideal S1024x1 .f32 := select v45 v46 v44
  have cst_24 : Ideal .f32 := Scalar.ofBits .f32 0x7F800000#32
  have v48 : FVec Ideal S1024x1 .f32 := broadcast S1024x1 cst_24
  have v49 : IVec S1024x1 1 := cmpf .oeq v47 v48
  have cst_25 : Ideal .f32 := Scalar.ofBits .f32 0x7F7FFFFF#32
  have v50 : FVec Ideal S1024x1 .f32 := broadcast S1024x1 cst_25
  have v51 : FVec Ideal S1024x1 .f32 := select v49 v50 v47
  have cst_26 : Ideal .f32 := Scalar.ofBits .f32 0xFF800000#32
  have v52 : FVec Ideal S1024x1 .f32 := broadcast S1024x1 cst_26
  have v53 : IVec S1024x1 1 := cmpf .oeq v51 v52
  have cst_27 : Ideal .f32 := Scalar.ofBits .f32 0xFF7FFFFF#32
  have v54 : FVec Ideal S1024x1 .f32 := broadcast S1024x1 cst_27
  have v55 : FVec Ideal S1024x1 .f32 := select v53 v54 v51
  v55

/-- The table of squared distances through |q|² + |a|² − 2 q·a: entry (r, a). -/
def d2V (v3 : FVec Ideal S1024x3 .f32) (v5 : FVec Ideal S1024x3 .f32) : FVec Ideal S1024x1024 .f32 :=
  have v56 : FVec Ideal S1024x3 .f32 := mulf v3 v3
  have v57 : FVec Ideal S1024 .f32 := multiReduction .add [1] S1024 v56 0x00000000#32 Facts₀.reduces_S1024x3_S1024 (.inl rfl) rfl
  have v58 : FVec Ideal S1024x1 .f32 := shapeCast S1024x1 v57 Facts₀.shapeCasts_S1024_S1024x1
  have v59 : FVec Ideal S1024x3 .f32 := mulf v5 v5
  have v60 : FVec Ideal S1024 .f32 := multiReduction .add [1] S1024 v59 0x00000000#32 Facts₀.reduces_S1024x3_S1024 (.inl rfl) rfl
  have v61 : FVec Ideal S1024x1 .f32 := shapeCast S1024x1 v60 Facts₀.shapeCasts_S1024_S1024x1
  have v62 : FVec Ideal S3x1024 .f32 := transpose S3x1024 [1, 0] v5 Facts₀.transposes_S1024x3_p1_0_S3x1024
  have cst_30 : FVec Ideal S1024x1024 .f32 := constant S1024x1024 .f32 0x00000000#32
  have v63 : FVec Ideal S1024x1024 .f32 := matmul dot_S1024x3_S3x1024_S1024x1024_1_0_0_1_n_n none v3 v62 cst_30
  have v64 : FVec Ideal S1x1024 .f32 := transpose S1x1024 [1, 0] v61 Facts₀.transposes_S1024x1_p1_0_S1x1024
  have v65 : FVec Ideal S1024x1024 .f32 := broadcastTo S1024x1024 v58 Facts₀.broadcasts_S1024x1_S1024x1024
  have v66 : FVec Ideal S1024x1024 .f32 := broadcastTo S1024x1024 v64 Facts₀.broadcasts_S1x1024_S1024x1024
  have v67 : FVec Ideal S1024x1024 .f32 := addf v65 v66
  have cst_31 : Ideal .f32 := Scalar.ofBits .f32 0x40000000#32
  have v68 : FVec Ideal S1024x1024 .f32 := broadcast S1024x1024 cst_31
  have v69 : FVec Ideal S1024x1024 .f32 := mulf v68 v63
  have v70 : FVec Ideal S1024x1024 .f32 := subf v67 v69
  v70

/-- The nearest-atom distance column: √(max (·, ε)) of the table, then the minimum along each row. -/
def mindV (v70 : FVec Ideal S1024x1024 .f32) : FVec Ideal S1024x1 .f32 :=
  have cst_32 : Ideal .f32 := Scalar.ofBits .f32 0x38D1B717#32
  have v71 : FVec Ideal S1024x1024 .f32 := broadcast S1024x1024 cst_32
  have v72 : FVec Ideal S1024x1024 .f32 := maximumf v70 v71
  have v73 : FVec Ideal S1024x1024 .f32 := sqrt v72
  have v74 : FVec Ideal S1024 .f32 := multiReduction .minimumf [1] S1024 v73 0x7F800000#32 Facts₀.reduces_S1024x1024_S1024 (.inl rfl) rfl
  have v75 : FVec Ideal S1024x1 .f32 := shapeCast S1024x1 v74 Facts₀.shapeCasts_S1024_S1024x1
  v75

/-- scale · exp (0 − mind), entry by entry. -/
def tailV (v55 : FVec Ideal S1024x1 .f32) (v75 : FVec Ideal S1024x1 .f32) : FVec Ideal S1024x1 .f32 :=
  have cst_34 : Ideal .f32 := Scalar.ofBits .f32 0x00000000#32
  have v76 : FVec Ideal S1024x1 .f32 := broadcast S1024x1 cst_34
  have v77 : FVec Ideal S1024x1 .f32 := subf v76 v75
  have v78 : FVec Ideal S1024x1 .f32 := exp v77
  have v79 : FVec Ideal S1024x1 .f32 := mulf v55 v78
  v79

/-- The second payload is its four stretches composed. -/
theorem pay6_split (v3 v5 : FVec Ideal S1024x3 .f32) (v10 : Vec Ideal S1x16 .f32) (v11 : Vec Ideal S1 .f32)
    (v35 : FVec Ideal S1024x16 .f32) :
    k0_pay6 (F := Ideal) v3 v5 v10 v11 v35 = tailV (nnV (lscV v10 v11 v35)) (mindV (d2V v3 v5)) := rfl

/-! ## The stretches read at an entry -/

/-- A minimum along the rows of a matrix, read on the extended reals at row i: the fold of min, from the accumulator's
    value, over the row's entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [ValueMinReduce.multiReduction_minimumf_single]
  have hf : (src ∘ h.lift (ix1 i)) = fun k : Fin b => src (ix2 i k) :=
    funext fun k => congrArg src (ValueKeepdims.lift_axis1_ix2 h i k)
  exact congrArg (fun f => Finset.fold min (Ideal.ofBits φ acc) f (Finset.univ : Finset (Fin b))) hf

/-- The frequency net's output column at (r, u). -/
theorem lscV_apply (v10 : Vec Ideal S1x16 .f32) (v11 : Vec Ideal S1 .f32) (v35 : FVec Ideal S1024x16 .f32)
    (r : Fin 1024) (u : Fin 1) :
    lscV v10 v11 v35 (ix2 r u) = (∑ j : Fin 16, v35 (ix2 r j) * v10 (ix2 u j)) + v11 (ix1 u) := by
  unfold lscV
  try dsimp only
  rw [addf_apply]
  refine congrArg₂ (· + ·) ?_ ?_
  · refine (Cert.Lib.PlainDot.matmul_zero_apply none _ _ r u).trans ?_
    refine Finset.sum_congr rfl fun j _ => ?_
    rw [transpose_ix2_apply]
  · rw [broadcastTo_1b_ab_apply, shapeCast_a_1a_apply]

/-- The clamp and nan_to_num at an entry. -/
theorem nnV_apply (v40 : FVec Ideal S1024x1 .f32) (i : S1024x1.Idx) : nnV v40 i = nn (clip (v40 i)) := rfl

/-- The table of squared distances at (r, a): the two squared norms minus twice the inner product. -/
theorem d2V_apply (v3 v5 : FVec Ideal S1024x3 .f32) (r a : Fin 1024) :
    d2V v3 v5 (ix2 r a)
      = ((∑ d : Fin 3, v3 (ix2 r d) * v3 (ix2 r d)) + (∑ d : Fin 3, v5 (ix2 a d) * v5 (ix2 a d)))
          - TWO * (∑ d : Fin 3, v3 (ix2 r d) * v5 (ix2 a d)) := by
  unfold d2V
  try dsimp only
  rw [subf_apply, addf_apply, mulf_apply, broadcast_apply]
  refine congrArg₂ (· - ·) (congrArg₂ (· + ·) ?_ ?_) (congrArg (TWO * ·) ?_)
  · rw [ValueKeepdims.broadcastTo_a1_ab_apply, ValueKeepdims.shapeCast_a_a1_apply]
    exact ValueKeepdims.multiReduction_add_row (mulf v3 v3) _ _ _ _ r
  · rw [broadcastTo_1b_ab_apply, transpose_ix2_apply, ValueKeepdims.shapeCast_a_a1_apply]
    exact ValueKeepdims.multiReduction_add_row (mulf v5 v5) _ _ _ _ a
  · refine (Cert.Lib.PlainDot.matmul_zero_apply none _ _ r a).trans ?_
    refine Finset.sum_congr rfl fun d _ => ?_
    rw [transpose_ix2_apply]

/-- The nearest-atom distance column at (r, u): the minimum over the row of √(max (·, ε)). -/
theorem mindV_apply (v70 : FVec Ideal S1024x1024 .f32) (r : Fin 1024) (u : Fin 1) :
    mindV v70 (ix2 r u)
      = (Finset.univ : Finset (Fin 1024)).fold min PINF (fun a => Ideal.sqrt (max (v70 (ix2 r a)) EPS)) := by
  unfold mindV
  try dsimp only
  rw [ValueKeepdims.shapeCast_a_a1_apply]
  exact multiReduction_minimumf_row _ _ _ _ _ r

/-- The last stretch at an entry. -/
theorem tailV_apply (v55 v75 : FVec Ideal S1024x1 .f32) (i : S1024x1.Idx) :
    tailV v55 v75 i = v55 i * Ideal.exp (Z - v75 i) := rfl

/-- The second payload at (r, u), for a query row and atoms with real coordinates. -/
theorem pay6_apply (v3 v5 : FVec Ideal S1024x3 .f32) (v10 : Vec Ideal S1x16 .f32) (v11 : Vec Ideal S1 .f32)
    (v35 : FVec Ideal S1024x16 .f32) (r : Fin 1024) (u : Fin 1)
    (hq : ∀ d, ∃ x : ℝ, v3 (ix2 r d) = (x : EReal)) (ha : ∀ a d, ∃ x : ℝ, v5 (ix2 a d) = (x : EReal)) :
    k0_pay6 (F := Ideal) v3 v5 v10 v11 v35 (ix2 r u)
      = nn (clip ((∑ j : Fin 16, v35 (ix2 r j) * v10 (ix2 u j)) + v11 (ix1 u)))
          * Ideal.exp (-(mindR (fun d => v3 (ix2 r d)) (fun a d => v5 (ix2 a d)))) := by
  rw [pay6_split, tailV_apply, nnV_apply, lscV_apply, mindV_apply, Z_sub]
  unfold mindR
  have hd : (fun a : Fin 1024 => Ideal.sqrt (max (d2V v3 v5 (ix2 r a)) EPS))
      = fun a : Fin 1024 => Ideal.sqrt (max (dist2R (fun d => v3 (ix2 r d)) (fun d => v5 (ix2 a d))) EPS) :=
    funext fun a => by rw [d2V_apply, Cert.Algebra.norms_sub_two_dot _ _ hq (ha a)]
  rw [hd]

/-- The stored block at (u, r, o): sin of the local frequency times the linear layer. -/
theorem pay1_apply (v16 : FVec Ideal S1024x256 .f32) (v79 : FVec Ideal S1024x1 .f32) (u : Fin 1) (r : Fin 1024) (o : Fin 256) :
    k0_pay1 (F := Ideal) v16 v79 (Scalar.ofBits .f32 0x3F800000#32) (ix3 u r o)
      = Ideal.sin ((THIRTY * (ONE + v79 (ix2 r (0 : Fin 1)))) * v16 (ix2 r o)) := by
  unfold k0_pay1
  try dsimp only
  rw [shapeCast_ab_1ab_apply]
  show Ideal.sin (broadcastTo S1024x256 _ Facts₀.broadcasts_S1024x1_S1024x256 (ix2 r o) * v16 (ix2 r o)) = _
  rw [ValueKeepdims.broadcastTo_a1_ab_apply]
  rfl

/-- THE BLOCK: what one grid point stores, at (u, r, o), is the specification's function of row r of the query blocks,
    of the atom block and of the weights — for a query row and atoms with real coordinates. -/
theorem block_apply (x0 : Vec Ideal S1x1024x256 .f32) (x1 x2 : Vec Ideal S1x1024x3 .f32) (x3 : Vec Ideal S256x256 .f32)
    (x4 : Vec Ideal S256 .f32) (x5 : Vec Ideal S16x3 .f32) (x6 : Vec Ideal S16 .f32) (x7 : Vec Ideal S1x16 .f32)
    (x8 : Vec Ideal S1 .f32) (u : Fin 1) (r : Fin 1024) (o : Fin 256)
    (hq : ∀ d, ∃ v : ℝ, x1 (ix3 (0 : Fin 1) r d) = (v : EReal))
    (ha : ∀ a d, ∃ v : ℝ, x2 (ix3 (0 : Fin 1) a d) = (v : EReal)) :
    k0_pay1 (F := Ideal) (k0_pay4 x0 x3 x4) (k0_pay6 (k0_pay2 x1) (k0_pay3 x2) x7 x8 (k0_pay5 x1 x5 x6))
        (Scalar.ofBits .f32 0x3F800000#32) (ix3 u r o)
      = outR (fun k => x0 (ix3 (0 : Fin 1) r k)) (fun d => x1 (ix3 (0 : Fin 1) r d)) (fun a d => x2 (ix3 (0 : Fin 1) a d))
          x3 x4 x5 x6 x7 x8 o := by
  rw [pay1_apply, pay4_apply,
    pay6_apply _ _ _ _ _ r 0 (fun d => by rw [pay2_apply]; exact hq d) (fun a d => by rw [pay3_apply]; exact ha a d)]
  simp only [pay5_apply, pay2_apply, pay3_apply]
  rfl

end Cert.KernelPay

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition read at the coordinates: when "every float input is finite" holds of the nine arrays, every query
  coordinate and every atom coordinate is a real number.

  The predicate is the conjunction, argument by argument, of all (|x| < +inf); its value 1 gives each conjunct 1, a
  conjunct's value 1 gives each elementwise test 1, and an extended real whose absolute value is below +inf is real.
-/
import proofs.«155118_j31817117728925_1_alg».proof.Pre_finite_inputs
import proofs.«155118_j31817117728925_1_alg».proof.Proof.Gen.Pre_finite_inputs
import proofs.«155118_j31817117728925_1_alg».proof.Proof.LibFiniteEntry
import Idealize.ShloMosaic.Lib.ReduceAll
import Idealize.ShloMosaic.Lib.Affine
import Idealize.ShloMosaic.Lib.ValueIdx

noncomputable section

namespace Cert.Finite

open Idealize.ShloMosaic Cert.Pre_finite_inputs Cert.Pre_finite_inputs.Gen

/-- Under the precondition the query coordinates and the atom coordinates are real numbers. -/
theorem coords_real (a0 : FVec Ideal S2x16384x256 .f32) (a1 : FVec Ideal S2x16384x3 .f32) (a2 : FVec Ideal S2x1024x3 .f32)
    (a3 : FVec Ideal S256x256 .f32) (a4 : FVec Ideal S256 .f32) (a5 : FVec Ideal S16x3 .f32) (a6 : FVec Ideal S16 .f32)
    (a7 : FVec Ideal S1x16 .f32) (a8 : FVec Ideal S1 .f32)
    (h : Cert.Pre_finite_inputs.fn (F := Ideal) a0 a1 a2 a3 a4 a5 a6 a7 a8 = fun _ => 1#1) :
    (∀ i, ∃ v : ℝ, a1 i = (v : EReal)) ∧ (∀ i, ∃ v : ℝ, a2 i = (v : EReal)) := by
  have h0 := congrFun h ValueIdx.ix0
  dsimp only [fn, fn_part1, fn_part2] at h0
  obtain ⟨h1, -⟩ := IntOp.andi_eq_one.mp h0
  obtain ⟨h2, -⟩ := IntOp.andi_eq_one.mp h1
  obtain ⟨h3, -⟩ := IntOp.andi_eq_one.mp h2
  obtain ⟨h4, -⟩ := IntOp.andi_eq_one.mp h3
  obtain ⟨h5, -⟩ := IntOp.andi_eq_one.mp h4
  obtain ⟨h6, -⟩ := IntOp.andi_eq_one.mp h5
  obtain ⟨h7, hA⟩ := IntOp.andi_eq_one.mp h6
  obtain ⟨-, hQ⟩ := IntOp.andi_eq_one.mp h7
  exact ⟨fun i => Cert.Lib.FiniteEntry.entry_real _ a1 i (Host.reduce_andi_all _ _ _ _ _ hQ i),
    fun i => Cert.Lib.FiniteEntry.entry_real _ a2 i (Host.reduce_andi_all _ _ _ _ _ hA i)⟩

end Cert.Finite

end
-- ==== Proof.KernelValue.lean ====
/-
  From blocks to the array: after the kernel's run its result array holds the specification, entry by entry.

  The grid has 2 × 16 points; point (bi, ni) loads rows ni·1024 … ni·1024 + 1023 of batch bi of the features and of the
  query coordinates, all 1024 atoms of batch bi, the whole weights, and writes back the same rows of the result. So what
  a point writes back is the specification read through its block, the 32 blocks tile the result array, and the
  array ends holding the specification everywhere. The distance identity inside the body asks the query and atom
  coordinates to be real numbers.
-/
import proofs.«155118_j31817117728925_1_alg».proof.Proof.Gen.KernelIdeal.Value
import proofs.«155118_j31817117728925_1_alg».proof.Proof.KernelPay
import proofs.«155118_j31817117728925_1_alg».proof.Proof.Finite
import proofs.«155118_j31817117728925_1_alg».proof.Defs

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification of the result array, of the argument arrays as the region finds them. -/
abbrev GV (c : Dev nD) : S2x16384x256.Idx → EReal :=
  Cert.Spec.G (V m c main_arg0) (V m c main_arg1) (V m c main_arg2) (V m c main_arg3) (V m c main_arg4) (V m c main_arg5)
    (V m c main_arg6) (V m c main_arg7) (V m c main_arg8)

/-- The printed index maps, decided over the 32 grid points: the feature and coordinate blocks move with the output
    block, the atom block follows the batch only, the weights stay, and the output's block indices are in range. -/
theorem idx_facts : ∀ t : Fin cfg0.N,
    win0_0.index t (0 : Fin 3) = win0_9.index t (0 : Fin 3) ∧ win0_0.index t (1 : Fin 3) = win0_9.index t (1 : Fin 3)
    ∧ win0_0.index t (2 : Fin 3) = 0
    ∧ win0_1.index t (0 : Fin 3) = win0_9.index t (0 : Fin 3) ∧ win0_1.index t (1 : Fin 3) = win0_9.index t (1 : Fin 3)
    ∧ win0_1.index t (2 : Fin 3) = 0
    ∧ win0_2.index t (0 : Fin 3) = win0_9.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) ≤ 1 ∧ win0_9.index t (1 : Fin 3) ≤ 15 ∧ win0_9.index t (2 : Fin 3) = 0 :=
  (by decide +kernel : ∀ t : Fin grid0.N, _)

/-- Every block of the result array is some point's. -/
theorem idx_onto : ∀ (q0 : Fin 2) (q1 : Fin 16), ∃ t : Fin cfg0.N, win0_9.index t = ![q0.val, q1.val, 0] :=
  (by decide +kernel : ∀ (q0 : Fin 2) (q1 : Fin 16), ∃ t : Fin grid0.N, win0_9.index t = ![q0.val, q1.val, 0])

/-- WHAT POINT t WRITES BACK is block t of the specification, when the query and atom coordinates are real. -/
theorem flushed9_eq (c : Dev nD) (t : Fin cfg0.N)
    (hQ : ∀ i, ∃ v : ℝ, V m c main_arg1 i = (v : EReal)) (hA : ∀ i, ∃ v : ℝ, V m c main_arg2 i = (v : EReal)) :
    (dats m 0 c).flushed 9 t = ((cfg0.win 9).blk t).view.read (Elt Ideal) (GV m c) := by
  show (cfg0.win 9).cut (grid0.coords t) ((dats m 0 c).after 9 t) = _
  rw [after0_9]
  unfold out0_9
  rw [View.canon_unit_zero hz3]
  simp only [View.ld_unit_zero (S := S1x1024x256) hz3, View.ld_unit_zero (S := S1x1024x3) hz3,
    View.ld_unit_zero (S := S256x256) hz2, View.ld_unit_zero (S := S256) hz1, View.ld_unit_zero (S := S16x3) hz2,
    View.ld_unit_zero (S := S16) hz1, View.ld_unit_zero (S := S1x16) hz2, View.ld_unit_zero (S := S1) hz1]
  obtain ⟨e00, e01, e02, e10, e11, e12, e20, e21, e22, e30, e31, e40, e50, e51, e60, e70, e71, e80, b0, b1, e92⟩ := idx_facts t
  funext j
  obtain ⟨u, r, o, rfl⟩ : ∃ (u : Fin 1) (r : Fin 1024) (o : Fin 256), j = ix3 u r o := ⟨j 0, j 1, j 2, eq_ix3 j⟩
  refine (Cert.KernelPay.block_apply (iblk m c 0 t) (iblk m c 1 t) (iblk m c 2 t) (iblk m c 3 t) (iblk m c 4 t) (iblk m c 5 t)
    (iblk m c 6 t) (iblk m c 7 t) (iblk m c 8 t) u r o (fun d => hQ _) (fun a d => hA _)).trans ?_
  have hb : win0_9.index t (0 : Fin 3) < 2 := by omega
  have hn : win0_9.index t (1 : Fin 3) * 1024 + r.val < 16384 := by have := r.isLt; omega
  have hu : u.val = 0 := by have := u.isLt; omega
  have hI : ((cfg0.win 9).blk t).view.emb (ix3 u r o)
      = ix3 (⟨win0_9.index t (0 : Fin 3), hb⟩ : Fin 2) (⟨win0_9.index t (1 : Fin 3) * 1024 + r.val, hn⟩ : Fin 16384) o := by
    funext a; apply Fin.ext
    match a with
    | ⟨0, _⟩ => show win0_9.index t (0 : Fin 3) * 1 + 1 * u.val = win0_9.index t (0 : Fin 3); omega
    | ⟨1, _⟩ => show win0_9.index t (1 : Fin 3) * 1024 + 1 * r.val = win0_9.index t (1 : Fin 3) * 1024 + r.val; omega
    | ⟨2, _⟩ => show win0_9.index t (2 : Fin 3) * 256 + 1 * o.val = o.val; omega
  show _ = GV m c (((cfg0.win 9).blk t).view.emb (ix3 u r o))
  rw [hI]
  show _ = Cert.Spec.outR
    (fun k => V m c main_arg0 (ix3 (⟨win0_9.index t (0 : Fin 3), hb⟩ : Fin 2) (⟨win0_9.index t (1 : Fin 3) * 1024 + r.val, hn⟩ : Fin 16384) k))
    (fun d => V m c main_arg1 (ix3 (⟨win0_9.index t (0 : Fin 3), hb⟩ : Fin 2) (⟨win0_9.index t (1 : Fin 3) * 1024 + r.val, hn⟩ : Fin 16384) d))
    (fun a d => V m c main_arg2 (ix3 (⟨win0_9.index t (0 : Fin 3), hb⟩ : Fin 2) a d))
    (V m c main_arg3) (V m c main_arg4) (V m c main_arg5) (V m c main_arg6) (V m c main_arg7) (V m c main_arg8) o
  have E0 : (fun k : Fin 256 => iblk m c 0 t (ix3 (0 : Fin 1) r k))
      = fun k => V m c main_arg0 (ix3 (⟨win0_9.index t (0 : Fin 3), hb⟩ : Fin 2) (⟨win0_9.index t (1 : Fin 3) * 1024 + r.val, hn⟩ : Fin 16384) k) :=
    funext fun k => by
      show V m c main_arg0 (((cfg0.win 0).blk t).view.emb (ix3 (0 : Fin 1) r k)) = _
      refine congrArg _ (funext fun a => Fin.ext ?_)
      match a with
      | ⟨0, _⟩ => show win0_0.index t (0 : Fin 3) * 1 + 1 * (0 : Fin 1).val = win0_9.index t (0 : Fin 3); simp only [Fin.val_zero]; omega
      | ⟨1, _⟩ => show win0_0.index t (1 : Fin 3) * 1024 + 1 * r.val = win0_9.index t (1 : Fin 3) * 1024 + r.val; omega
      | ⟨2, _⟩ => show win0_0.index t (2 : Fin 3) * 256 + 1 * k.val = k.val; omega
  have E1 : (fun d : Fin 3 => iblk m c 1 t (ix3 (0 : Fin 1) r d))
      = fun d => V m c main_arg1 (ix3 (⟨win0_9.index t (0 : Fin 3), hb⟩ : Fin 2) (⟨win0_9.index t (1 : Fin 3) * 1024 + r.val, hn⟩ : Fin 16384) d) :=
    funext fun d => by
      show V m c main_arg1 (((cfg0.win 1).blk t).view.emb (ix3 (0 : Fin 1) r d)) = _
      refine congrArg _ (funext fun a => Fin.ext ?_)
      match a with
      | ⟨0, _⟩ => show win0_1.index t (0 : Fin 3) * 1 + 1 * (0 : Fin 1).val = win0_9.index t (0 : Fin 3); simp only [Fin.val_zero]; omega
      | ⟨1, _⟩ => show win0_1.index t (1 : Fin 3) * 1024 + 1 * r.val = win0_9.index t (1 : Fin 3) * 1024 + r.val; omega
      | ⟨2, _⟩ => show win0_1.index t (2 : Fin 3) * 3 + 1 * d.val = d.val; omega
  have E2 : (fun (a : Fin 1024) (d : Fin 3) => iblk m c 2 t (ix3 (0 : Fin 1) a d))
      = fun a d => V m c main_arg2 (ix3 (⟨win0_9.index t (0 : Fin 3), hb⟩ : Fin 2) a d) :=
    funext fun a' => funext fun d => by
      show V m c main_arg2 (((cfg0.win 2).blk t).view.emb (ix3 (0 : Fin 1) a' d)) = _
      refine congrArg _ (funext fun a => Fin.ext ?_)
      match a with
      | ⟨0, _⟩ => show win0_2.index t (0 : Fin 3) * 1 + 1 * (0 : Fin 1).val = win0_9.index t (0 : Fin 3); simp only [Fin.val_zero]; omega
      | ⟨1, _⟩ => show win0_2.index t (1 : Fin 3) * 1024 + 1 * a'.val = a'.val; omega
      | ⟨2, _⟩ => show win0_2.index t (2 : Fin 3) * 3 + 1 * d.val = d.val; omega
  have E3 : iblk m c 3 t = V m c main_arg3 := funext fun y => by
    show V m c main_arg3 (((cfg0.win 3).blk t).view.emb y) = V m c main_arg3 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have E4 : iblk m c 4 t = V m c main_arg4 := funext fun y => by
    show V m c main_arg4 (((cfg0.win 4).blk t).view.emb y) = V m c main_arg4 y
    refine congrArg _ (funext fun a => Fin.ext ?_)
    match a with
    | ⟨0, _⟩ => show win0_4.index t (0 : Fin 1) * 256 + 1 * (y 0).val = (y 0).val; omega
  have E5 : iblk m c 5 t = V m c main_arg5 := funext fun y => by
    show V m c main_arg5 (((cfg0.win 5).blk t).view.emb y) = V m c main_arg5 y
    refine congrArg _ (funext fun a => Fin.ext ?_)
    match a with
    | ⟨0, _⟩ => show win0_5.index t (0 : Fin 2) * 16 + 1 * (y 0).val = (y 0).val; omega
    | ⟨1, _⟩ => show win0_5.index t (1 : Fin 2) * 3 + 1 * (y 1).val = (y 1).val; omega
  have E6 : iblk m c 6 t = V m c main_arg6 := funext fun y => by
    show V m c main_arg6 (((cfg0.win 6).blk t).view.emb y) = V m c main_arg6 y
    refine congrArg _ (funext fun a => Fin.ext ?_)
    match a with
    | ⟨0, _⟩ => show win0_6.index t (0 : Fin 1) * 16 + 1 * (y 0).val = (y 0).val; omega
  have E7 : iblk m c 7 t = V m c main_arg7 := funext fun y => by
    show V m c main_arg7 (((cfg0.win 7).blk t).view.emb y) = V m c main_arg7 y
    refine congrArg _ (funext fun a => Fin.ext ?_)
    match a with
    | ⟨0, _⟩ => show win0_7.index t (0 : Fin 2) * 1 + 1 * (y 0).val = (y 0).val; omega
    | ⟨1, _⟩ => show win0_7.index t (1 : Fin 2) * 16 + 1 * (y 1).val = (y 1).val; omega
  have E8 : iblk m c 8 t = V m c main_arg8 := funext fun y => by
    show V m c main_arg8 (((cfg0.win 8).blk t).view.emb y) = V m c main_arg8 y
    refine congrArg _ (funext fun a => Fin.ext ?_)
    match a with
    | ⟨0, _⟩ => show win0_8.index t (0 : Fin 1) * 1 + 1 * (y 0).val = (y 0).val; omega
  rw [E0, E1, E2, E3, E4, E5, E6, E7, E8]

/-- An index of the result array is in point t's block iff each coordinate is in the block's range on its axis. -/
theorem mem_blk9 (t : Fin cfg0.N) (i : S2x16384x256.Idx) :
    i ∈ ((cfg0.win 9).blk t).view.set ↔ ∀ a : Fin 3, win0_9.index t a * S1x1024x256.size a ≤ (i a).val
      ∧ (i a).val < win0_9.index t a * S1x1024x256.size a + S1x1024x256.size a := by
  show i ∈ ((View.whole main_v0).slice (win0_9.rect t)).set ↔ _
  rw [View.set_slice_whole, Rect.mem_set_unit]
  exact Iff.rfl

/-- The 32 blocks tile the result array: entry (b, n, o) is in the block of the point (b, n / 1024). -/
theorem cover9 (i : S2x16384x256.Idx) :
    ∃ t : Fin cfg0.N, (cfg0.win 9).flush t = true ∧ i ∈ ((cfg0.win 9).blk t).view.set := by
  have hi0 : (i 0).val < 2 := (i 0).isLt
  have hi1 : (i 1).val < 16384 := (i 1).isLt
  have hi2 : (i 2).val < 256 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- THE ARRAY after the run is the specification of the argument arrays. -/
theorem final9 (c : Dev nD)
    (hQ : ∀ i, ∃ v : ℝ, V m c main_arg1 i = (v : EReal)) (hA : ∀ i, ∃ v : ℝ, V m c main_arg2 i = (v : EReal)) :
    (dats m 0 c).arrAt 9 cfg0.N = GV m c :=
  (dats m 0 c).arrAt_eq_of_cover 9 (GV m c) (fun t _ => flushed9_eq m c t hQ hA) cover9

/-- The kernel's run, read: under the precondition every weakly fair execution terminates with the result array at the
    specification of the argument arrays, and the argument arrays unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      have hr := Cert.Finite.coords_real _ _ _ _ _ _ _ _ _ (hpre c)
      ⟨(h c).1.trans (final9 m c hr.1 hr.2), (h c).2⟩)
    (Value.run_blocks m ρ)

end Cert.KernelValue

end
-- ==== Proof.RefRun.lean ====
import proofs.«155118_j31817117728925_1_alg».proof.Proof.Gen.ReferenceIdeal
import Idealize.ShloMosaic.Lib.StableHlo.Run

/-! # The reference program's run, read back through named stages

The reference's @main is a straight line of host operations with three calls of module-local functions
(a softplus, a clip to an interval, a replacement of non-numbers and infinities), one of which calls a
fourth (an elementwise choice) three times. Here the calls are unfolded in place, so that @main is one
list of operations, its run is read off the list, and the value of the result buffer is stated as a
composition of named arrays ("stages"), each a function of the argument arrays only. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 78 operations in program order, the calls unfolded in place: the softplus is fourteen
    operations over the buffers of the first call's record, the clip six over the second's, the replacement
    of non-numbers sixteen over the third's (each of its three elementwise choices a broadcast and a
    select over that choice's own record). -/
abbrev ops : List (HloOp τ sig (Elt F)) :=
  [
    binary main_arg0 main_arg3 main_v0 ((fun l r => Host.dotGeneral dot_S2x16384x256_S256x256_S2x16384x256_2_1_01_0_n_n none l r) : (⟨S2x16384x256, .f32⟩ : BufTy).Contents (Elt F) → (⟨S256x256, .f32⟩ : BufTy).Contents (Elt F) → (⟨S2x16384x256, .f32⟩ : BufTy).Contents (Elt F)),
    unary main_arg4 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v0 main_v2 main_v3 (addf : (⟨S2x16384x256, .f32⟩ : BufTy).Contents (Elt F) → (⟨S2x16384x256, .f32⟩ : BufTy).Contents (Elt F) → (⟨S2x16384x256, .f32⟩ : BufTy).Contents (Elt F)),
    binary main_arg1 main_arg5 main_v4 ((fun l r => Host.dotGeneral dot_S2x16384x3_S16x3_S2x16384x16_2_1_01_0_n_n none l r) : (⟨S2x16384x3, .f32⟩ : BufTy).Contents (Elt F) → (⟨S16x3, .f32⟩ : BufTy).Contents (Elt F) → (⟨S2x16384x16, .f32⟩ : BufTy).Contents (Elt F)),
    unary main_arg6 main_v5 (broadcastInDim S1x1x16 ![2] bcast_S16_S1x1x16_2 : (⟨S16, .f32⟩ : BufTy).Contents (Elt F) → (⟨S1x1x16, .f32⟩ : BufTy).Contents (Elt F)),
    unary main_v5 main_v6 (broadcastInDim S2x16384x16 ![0, 1, 2] bcast_S1x1x16_S2x16384x16_0_1_2 : (⟨S1x1x16, .f32⟩ : BufTy).Contents (Elt F) → (⟨S2x16384x16, .f32⟩ : BufTy).Contents (Elt F)),
    binary main_v4 main_v6 main_v7 (addf : (⟨S2x16384x16, .f32⟩ : BufTy).Contents (Elt F) → (⟨S2x16384x16, .f32⟩ : BufTy).Contents (Elt F) → (⟨S2x16384x16, .f32⟩ : BufTy).Contents (Elt F)),
    TRef.nullary main_call0.cst (constant S_ .f32 0x00000000#32),
    TRef.unary main_call0.cst main_call0.v0 (broadcastInDim S2x16384x16 ![] bcast_S_S2x16384x16),
    TRef.binary (.of main_v7) main_call0.v0 main_call0.v1 maximumf,
    TRef.unary main_call0.cst main_call0.v2 (broadcastInDim S2x16384x16 ![] bcast_S_S2x16384x16),
    TRef.binary (.of main_v7) main_call0.v2 main_call0.v3 subf,
    TRef.binary main_call0.v3 main_call0.v3 main_call0.v4 (cmpf .une),
    TRef.unary main_call0.cst main_call0.v5 (broadcastInDim S2x16384x16 ![] bcast_S_S2x16384x16),
    TRef.binary (.of main_v7) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    binary main_v8 main_arg7 main_v9 ((fun l r => Host.dotGeneral dot_S2x16384x16_S1x16_S2x16384x1_2_1_01_0_n_n none l r) : (⟨S2x16384x16, .f32⟩ : BufTy).Contents (Elt F) → (⟨S1x16, .f32⟩ : BufTy).Contents (Elt F) → (⟨S2x16384x1, .f32⟩ : BufTy).Contents (Elt F)),
    unary main_arg8 main_v10 (broadcastInDim S1x1x1 ![2] bcast_S1_S1x1x1_2 : (⟨S1, .f32⟩ : BufTy).Contents (Elt F) → (⟨S1x1x1, .f32⟩ : BufTy).Contents (Elt F)),
    unary main_v10 main_v11 (broadcastInDim S2x16384x1 ![0, 1, 2] bcast_S1x1x1_S2x16384x1_0_1_2 : (⟨S1x1x1, .f32⟩ : BufTy).Contents (Elt F) → (⟨S2x16384x1, .f32⟩ : BufTy).Contents (Elt F)),
    binary main_v9 main_v11 main_v12 (addf : (⟨S2x16384x1, .f32⟩ : BufTy).Contents (Elt F) → (⟨S2x16384x1, .f32⟩ : BufTy).Contents (Elt F) → (⟨S2x16384x1, .f32⟩ : BufTy).Contents (Elt F)),
    nullary main_cst (constant S_ .f32 0x00000000#32),
    nullary main_cst_0 (constant S_ .f32 0x40A00000#32),
    TRef.unary (.of main_cst) main_call1.v0 id,
    TRef.unary main_call1.v0 main_call1.v1 (broadcastInDim S2x16384x1 ![] bcast_S_S2x16384x1),
    TRef.binary main_call1.v1 (.of main_v12) main_call1.v2 maximumf,
    TRef.unary (.of main_cst_0) main_call1.v3 id,
    TRef.unary main_call1.v3 main_call1.v4 (broadcastInDim S2x16384x1 ![] bcast_S_S2x16384x1),
    TRef.binary main_call1.v4 main_call1.v2 main_call1.v5 minimumf,
    nullary main_cst_1 (constant S_ .f32 0x00000000#32),
    TRef.binary (.of main_v13) (.of main_v13) main_call2.v0 (cmpf .une),
    TRef.unary (.of main_cst_1) main_call2.v1 id,
    TRef.unary main_call2.v1 main_call2.call0.v0 (broadcastInDim S2x16384x1 ![] bcast_S_S2x16384x1),
    TRef.ternary main_call2.v0 main_call2.call0.v0 (.of main_v13) main_call2.call0.v1 select,
    TRef.nullary main_call2.cst (constant S_ .f32 0x7F800000#32),
    TRef.unary main_call2.cst main_call2.v3 (broadcastInDim S2x16384x1 ![] bcast_S_S2x16384x1),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S2x16384x1 ![] bcast_S_S2x16384x1),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S2x16384x1 ![] bcast_S_S2x16384x1),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S2x16384x1 ![] bcast_S_S2x16384x1),
    TRef.ternary main_call2.v7 main_call2.call2.v0 main_call2.call1.v1 main_call2.call2.v1 select,
    unary main_arg1 main_v15 (broadcastInDim S2x16384x1x3 ![0, 1, 3] bcast_S2x16384x3_S2x16384x1x3_0_1_3 : (⟨S2x16384x3, .f32⟩ : BufTy).Contents (Elt F) → (⟨S2x16384x1x3, .f32⟩ : BufTy).Contents (Elt F)),
    unary main_arg2 main_v16 (broadcastInDim S2x1x1024x3 ![0, 2, 3] bcast_S2x1024x3_S2x1x1024x3_0_2_3 : (⟨S2x1024x3, .f32⟩ : BufTy).Contents (Elt F) → (⟨S2x1x1024x3, .f32⟩ : BufTy).Contents (Elt F)),
    unary main_v15 main_v17 (broadcastInDim S2x16384x1024x3 ![0, 1, 2, 3] bcast_S2x16384x1x3_S2x16384x1024x3_0_1_2_3 : (⟨S2x16384x1x3, .f32⟩ : BufTy).Contents (Elt F) → (⟨S2x16384x1024x3, .f32⟩ : BufTy).Contents (Elt F)),
    unary main_v16 main_v18 (broadcastInDim S2x16384x1024x3 ![0, 1, 2, 3] bcast_S2x1x1024x3_S2x16384x1024x3_0_1_2_3 : (⟨S2x1x1024x3, .f32⟩ : BufTy).Contents (Elt F) → (⟨S2x16384x1024x3, .f32⟩ : BufTy).Contents (Elt F)),
    binary main_v17 main_v18 main_v19 (subf : (⟨S2x16384x1024x3, .f32⟩ : BufTy).Contents (Elt F) → (⟨S2x16384x1024x3, .f32⟩ : BufTy).Contents (Elt F) → (⟨S2x16384x1024x3, .f32⟩ : BufTy).Contents (Elt F)),
    binary main_v19 main_v19 main_v20 (mulf : (⟨S2x16384x1024x3, .f32⟩ : BufTy).Contents (Elt F) → (⟨S2x16384x1024x3, .f32⟩ : BufTy).Contents (Elt F) → (⟨S2x16384x1024x3, .f32⟩ : BufTy).Contents (Elt F)),
    nullary main_cst_2 (constant S_ .f32 0x00000000#32),
    binary main_v20 main_cst_2 main_v21 ((fun x v => Host.reduceAdd x v reducesTo_S2x16384x1024x3_S2x16384x1024_d3 h_S_) : (⟨S2x16384x1024x3, .f32⟩ : BufTy).Contents (Elt F) → (⟨S_, .f32⟩ : BufTy).Contents (Elt F) → (⟨S2x16384x1024, .f32⟩ : BufTy).Contents (Elt F)),
    nullary main_cst_3 (constant S_ .f32 0x38D1B717#32),
    unary main_cst_3 main_v22 (broadcastInDim S2x16384x1024 ![] bcast_S_S2x16384x1024 : (⟨S_, .f32⟩ : BufTy).Contents (Elt F) → (⟨S2x16384x1024, .f32⟩ : BufTy).Contents (Elt F)),
    binary main_v21 main_v22 main_v23 (maximumf : (⟨S2x16384x1024, .f32⟩ : BufTy).Contents (Elt F) → (⟨S2x16384x1024, .f32⟩ : BufTy).Contents (Elt F) → (⟨S2x16384x1024, .f32⟩ : BufTy).Contents (Elt F)),
    unary main_v23 main_v24 (Host.sqrt : (⟨S2x16384x1024, .f32⟩ : BufTy).Contents (Elt F) → (⟨S2x16384x1024, .f32⟩ : BufTy).Contents (Elt F)),
    nullary main_cst_4 (constant S_ .f32 0x7F800000#32),
    binary main_v24 main_cst_4 main_v25 ((fun x v => Host.reduce FloatOps.minimumf x v reducesTo_S2x16384x1024_S2x16384_d2 h_S_) : (⟨S2x16384x1024, .f32⟩ : BufTy).Contents (Elt F) → (⟨S_, .f32⟩ : BufTy).Contents (Elt F) → (⟨S2x16384, .f32⟩ : BufTy).Contents (Elt F)),
    unary main_v25 main_v26 (broadcastInDim S2x16384x1 ![0, 1] bcast_S2x16384_S2x16384x1_0_1 : (⟨S2x16384, .f32⟩ : BufTy).Contents (Elt F) → (⟨S2x16384x1, .f32⟩ : BufTy).Contents (Elt F)),
    unary main_v26 main_v27 (Host.negf : (⟨S2x16384x1, .f32⟩ : BufTy).Contents (Elt F) → (⟨S2x16384x1, .f32⟩ : BufTy).Contents (Elt F)),
    unary main_v27 main_v28 (Host.exp : (⟨S2x16384x1, .f32⟩ : BufTy).Contents (Elt F) → (⟨S2x16384x1, .f32⟩ : BufTy).Contents (Elt F)),
    binary main_v14 main_v28 main_v29 (mulf : (⟨S2x16384x1, .f32⟩ : BufTy).Contents (Elt F) → (⟨S2x16384x1, .f32⟩ : BufTy).Contents (Elt F) → (⟨S2x16384x1, .f32⟩ : BufTy).Contents (Elt F)),
    nullary main_cst_5 (constant S_ .f32 0x3F800000#32),
    unary main_cst_5 main_v30 (broadcastInDim S2x16384x1 ![] bcast_S_S2x16384x1 : (⟨S_, .f32⟩ : BufTy).Contents (Elt F) → (⟨S2x16384x1, .f32⟩ : BufTy).Contents (Elt F)),
    binary main_v30 main_v29 main_v31 (addf : (⟨S2x16384x1, .f32⟩ : BufTy).Contents (Elt F) → (⟨S2x16384x1, .f32⟩ : BufTy).Contents (Elt F) → (⟨S2x16384x1, .f32⟩ : BufTy).Contents (Elt F)),
    nullary main_cst_6 (constant S_ .f32 0x41F00000#32),
    unary main_cst_6 main_v32 (broadcastInDim S2x16384x1 ![] bcast_S_S2x16384x1 : (⟨S_, .f32⟩ : BufTy).Contents (Elt F) → (⟨S2x16384x1, .f32⟩ : BufTy).Contents (Elt F)),
    binary main_v32 main_v31 main_v33 (mulf : (⟨S2x16384x1, .f32⟩ : BufTy).Contents (Elt F) → (⟨S2x16384x1, .f32⟩ : BufTy).Contents (Elt F) → (⟨S2x16384x1, .f32⟩ : BufTy).Contents (Elt F)),
    unary main_v33 main_v34 (broadcastInDim S2x16384x256 ![0, 1, 2] bcast_S2x16384x1_S2x16384x256_0_1_2 : (⟨S2x16384x1, .f32⟩ : BufTy).Contents (Elt F) → (⟨S2x16384x256, .f32⟩ : BufTy).Contents (Elt F)),
    binary main_v34 main_v3 main_v35 (mulf : (⟨S2x16384x256, .f32⟩ : BufTy).Contents (Elt F) → (⟨S2x16384x256, .f32⟩ : BufTy).Contents (Elt F) → (⟨S2x16384x256, .f32⟩ : BufTy).Contents (Elt F)),
    unary main_v35 main_v36 (Host.sin : (⟨S2x16384x256, .f32⟩ : BufTy).Contents (Elt F) → (⟨S2x16384x256, .f32⟩ : BufTy).Contents (Elt F)) ]

set_option maxRecDepth 4096 in
set_option maxHeartbeats 4000000 in
/-- @main is that straight line: the functions' bodies unfolded at their calls, both sides are one chain
    of host steps once sequencing is reassociated. -/
theorem main_eq (c : Dev nD) : main (F := F) c = seq ops := by
  simp only [main, fn_softplus.body, fn_clip.body, fn_nan_to_num.body, fn_where.body, seq, bind_assoc, pure_bind]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., binary_bufs_sub ..,
    unary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., unary_bufs_sub .., unary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., nullary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., unary_bufs_sub .., binary_bufs_sub .., unary_bufs_sub ..⟩

/-- On every device, for any float values, from any memory with zero counters: every weakly fair execution
    of @main terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages -/

/-- The feature projection: x · Wᵀ + b, the contraction over the 256 input features, the bias broadcast
    along the batch and the query axes. -/
def st_v3 (x : (⟨S2x16384x256, .f32⟩ : BufTy).Contents (Elt F)) (W : (⟨S256x256, .f32⟩ : BufTy).Contents (Elt F)) (b : (⟨S256, .f32⟩ : BufTy).Contents (Elt F)) : (⟨S2x16384x256, .f32⟩ : BufTy).Contents (Elt F) :=
  addf (Host.dotGeneral dot_S2x16384x256_S256x256_S2x16384x256_2_1_01_0_n_n none x W)
    (broadcastInDim S2x16384x256 ![0, 1, 2] bcast_S1x1x256_S2x16384x256_0_1_2 (broadcastInDim S1x1x256 ![2] bcast_S256_S1x1x256_2 b))

/-- The hidden layer before its activation: q · fw1ᵀ + fb1, the contraction over the three coordinates. -/
def st_v7 (q : (⟨S2x16384x3, .f32⟩ : BufTy).Contents (Elt F)) (fw1 : (⟨S16x3, .f32⟩ : BufTy).Contents (Elt F)) (fb1 : (⟨S16, .f32⟩ : BufTy).Contents (Elt F)) : (⟨S2x16384x16, .f32⟩ : BufTy).Contents (Elt F) :=
  addf (Host.dotGeneral dot_S2x16384x3_S16x3_S2x16384x16_2_1_01_0_n_n none q fw1)
    (broadcastInDim S2x16384x16 ![0, 1, 2] bcast_S1x1x16_S2x16384x16_0_1_2 (broadcastInDim S1x1x16 ![2] bcast_S16_S1x1x16_2 fb1))

/-- The softplus of an array, elementwise: where a − 0 is not a number the value a + 0, elsewhere
    max(a, 0) + log(1 + exp(−|a − 0|)). -/
def softplusOf (a : (⟨S2x16384x16, .f32⟩ : BufTy).Contents (Elt F)) : (⟨S2x16384x16, .f32⟩ : BufTy).Contents (Elt F) :=
  select (cmpf .une (subf a (broadcastInDim S2x16384x16 ![] bcast_S_S2x16384x16 (constant S_ .f32 0x00000000#32))) (subf a (broadcastInDim S2x16384x16 ![] bcast_S_S2x16384x16 (constant S_ .f32 0x00000000#32))))
    (addf a (broadcastInDim S2x16384x16 ![] bcast_S_S2x16384x16 (constant S_ .f32 0x00000000#32)))
    (addf (maximumf a (broadcastInDim S2x16384x16 ![] bcast_S_S2x16384x16 (constant S_ .f32 0x00000000#32)))
      (Host.log1p (Host.exp (Host.negf (Host.absf (subf a (broadcastInDim S2x16384x16 ![] bcast_S_S2x16384x16 (constant S_ .f32 0x00000000#32))))))))

/-- The hidden layer: the softplus of q · fw1ᵀ + fb1. -/
def st_v8 (q : (⟨S2x16384x3, .f32⟩ : BufTy).Contents (Elt F)) (fw1 : (⟨S16x3, .f32⟩ : BufTy).Contents (Elt F)) (fb1 : (⟨S16, .f32⟩ : BufTy).Contents (Elt F)) : (⟨S2x16384x16, .f32⟩ : BufTy).Contents (Elt F) :=
  softplusOf (st_v7 q fw1 fb1)

/-- The amplitude before clipping: hidden · fw2ᵀ + fb2, the contraction over the sixteen hidden units. -/
def st_v12 (q : (⟨S2x16384x3, .f32⟩ : BufTy).Contents (Elt F)) (fw1 : (⟨S16x3, .f32⟩ : BufTy).Contents (Elt F)) (fb1 : (⟨S16, .f32⟩ : BufTy).Contents (Elt F)) (fw2 : (⟨S1x16, .f32⟩ : BufTy).Contents (Elt F)) (fb2 : (⟨S1, .f32⟩ : BufTy).Contents (Elt F)) : (⟨S2x16384x1, .f32⟩ : BufTy).Contents (Elt F) :=
  addf (Host.dotGeneral dot_S2x16384x16_S1x16_S2x16384x1_2_1_01_0_n_n none (st_v8 q fw1 fb1) fw2)
    (broadcastInDim S2x16384x1 ![0, 1, 2] bcast_S1x1x1_S2x16384x1_0_1_2 (broadcastInDim S1x1x1 ![2] bcast_S1_S1x1x1_2 fb2))

/-- An array clipped to the interval [0, 5], elementwise: min(5, max(0, a)). -/
def clipOf (a : (⟨S2x16384x1, .f32⟩ : BufTy).Contents (Elt F)) : (⟨S2x16384x1, .f32⟩ : BufTy).Contents (Elt F) :=
  minimumf (broadcastInDim S2x16384x1 ![] bcast_S_S2x16384x1 (constant S_ .f32 0x40A00000#32)) (maximumf (broadcastInDim S2x16384x1 ![] bcast_S_S2x16384x1 (constant S_ .f32 0x00000000#32)) a)

/-- The amplitude clipped to [0, 5]. -/
def st_v13 (q : (⟨S2x16384x3, .f32⟩ : BufTy).Contents (Elt F)) (fw1 : (⟨S16x3, .f32⟩ : BufTy).Contents (Elt F)) (fb1 : (⟨S16, .f32⟩ : BufTy).Contents (Elt F)) (fw2 : (⟨S1x16, .f32⟩ : BufTy).Contents (Elt F)) (fb2 : (⟨S1, .f32⟩ : BufTy).Contents (Elt F)) : (⟨S2x16384x1, .f32⟩ : BufTy).Contents (Elt F) :=
  clipOf (st_v12 q fw1 fb1 fw2 fb2)

/-- A non-number replaced by zero, elementwise. -/
def nanToZero (a : (⟨S2x16384x1, .f32⟩ : BufTy).Contents (Elt F)) : (⟨S2x16384x1, .f32⟩ : BufTy).Contents (Elt F) :=
  select (cmpf .une a a) (broadcastInDim S2x16384x1 ![] bcast_S_S2x16384x1 (constant S_ .f32 0x00000000#32)) a

/-- After that, plus infinity replaced by the largest finite value, elementwise. -/
def posInfToMax (a : (⟨S2x16384x1, .f32⟩ : BufTy).Contents (Elt F)) : (⟨S2x16384x1, .f32⟩ : BufTy).Contents (Elt F) :=
  select (cmpf .oeq (nanToZero a) (broadcastInDim S2x16384x1 ![] bcast_S_S2x16384x1 (constant S_ .f32 0x7F800000#32))) (broadcastInDim S2x16384x1 ![] bcast_S_S2x16384x1 (constant S_ .f32 0x7F7FFFFF#32)) (nanToZero a)

/-- After both, minus infinity replaced by the most negative finite value, elementwise: every element
    is then a finite number. -/
def nanToNumOf (a : (⟨S2x16384x1, .f32⟩ : BufTy).Contents (Elt F)) : (⟨S2x16384x1, .f32⟩ : BufTy).Contents (Elt F) :=
  select (cmpf .oeq (posInfToMax a) (broadcastInDim S2x16384x1 ![] bcast_S_S2x16384x1 (constant S_ .f32 0xFF800000#32))) (broadcastInDim S2x16384x1 ![] bcast_S_S2x16384x1 (constant S_ .f32 0xFF7FFFFF#32)) (posInfToMax a)

/-- The clipped amplitude with non-numbers and infinities replaced. -/
def st_v14 (q : (⟨S2x16384x3, .f32⟩ : BufTy).Contents (Elt F)) (fw1 : (⟨S16x3, .f32⟩ : BufTy).Contents (Elt F)) (fb1 : (⟨S16, .f32⟩ : BufTy).Contents (Elt F)) (fw2 : (⟨S1x16, .f32⟩ : BufTy).Contents (Elt F)) (fb2 : (⟨S1, .f32⟩ : BufTy).Contents (Elt F)) : (⟨S2x16384x1, .f32⟩ : BufTy).Contents (Elt F) :=
  nanToNumOf (st_v13 q fw1 fb1 fw2 fb2)

/-- The coordinate differences between query n and atom a, both broadcast to the common
    batch × query × atom × coordinate array. -/
def st_v19 (q : (⟨S2x16384x3, .f32⟩ : BufTy).Contents (Elt F)) (ac : (⟨S2x1024x3, .f32⟩ : BufTy).Contents (Elt F)) : (⟨S2x16384x1024x3, .f32⟩ : BufTy).Contents (Elt F) :=
  subf
    (broadcastInDim S2x16384x1024x3 ![0, 1, 2, 3] bcast_S2x16384x1x3_S2x16384x1024x3_0_1_2_3 (broadcastInDim S2x16384x1x3 ![0, 1, 3] bcast_S2x16384x3_S2x16384x1x3_0_1_3 q))
    (broadcastInDim S2x16384x1024x3 ![0, 1, 2, 3] bcast_S2x1x1024x3_S2x16384x1024x3_0_1_2_3 (broadcastInDim S2x1x1024x3 ![0, 2, 3] bcast_S2x1024x3_S2x1x1024x3_0_2_3 ac))

/-- The squared distance from query n to atom a, summed over the three coordinates from zero. -/
def st_v21 (q : (⟨S2x16384x3, .f32⟩ : BufTy).Contents (Elt F)) (ac : (⟨S2x1024x3, .f32⟩ : BufTy).Contents (Elt F)) : (⟨S2x16384x1024, .f32⟩ : BufTy).Contents (Elt F) :=
  Host.reduceAdd (mulf (st_v19 q ac) (st_v19 q ac)) (constant S_ .f32 0x00000000#32) reducesTo_S2x16384x1024x3_S2x16384x1024_d3 h_S_

/-- The distance from query n to its nearest atom: the minimum over the atoms, from plus infinity, of the
    square root of the squared distance floored at the small constant. -/
def st_v25 (q : (⟨S2x16384x3, .f32⟩ : BufTy).Contents (Elt F)) (ac : (⟨S2x1024x3, .f32⟩ : BufTy).Contents (Elt F)) : (⟨S2x16384, .f32⟩ : BufTy).Contents (Elt F) :=
  Host.reduce FloatOps.minimumf
    (Host.sqrt (maximumf (st_v21 q ac) (broadcastInDim S2x16384x1024 ![] bcast_S_S2x16384x1024 (constant S_ .f32 0x38D1B717#32))))
    (constant S_ .f32 0x7F800000#32) reducesTo_S2x16384x1024_S2x16384_d2 h_S_

/-- The frequency scale of query n: 30 · (1 + amplitude · exp(−nearest distance)). -/
def st_v33 (q : (⟨S2x16384x3, .f32⟩ : BufTy).Contents (Elt F)) (ac : (⟨S2x1024x3, .f32⟩ : BufTy).Contents (Elt F)) (fw1 : (⟨S16x3, .f32⟩ : BufTy).Contents (Elt F)) (fb1 : (⟨S16, .f32⟩ : BufTy).Contents (Elt F)) (fw2 : (⟨S1x16, .f32⟩ : BufTy).Contents (Elt F)) (fb2 : (⟨S1, .f32⟩ : BufTy).Contents (Elt F)) : (⟨S2x16384x1, .f32⟩ : BufTy).Contents (Elt F) :=
  mulf (broadcastInDim S2x16384x1 ![] bcast_S_S2x16384x1 (constant S_ .f32 0x41F00000#32))
    (addf (broadcastInDim S2x16384x1 ![] bcast_S_S2x16384x1 (constant S_ .f32 0x3F800000#32))
      (mulf (st_v14 q fw1 fb1 fw2 fb2)
        (Host.exp (Host.negf (broadcastInDim S2x16384x1 ![0, 1] bcast_S2x16384_S2x16384x1_0_1 (st_v25 q ac))))))

/-- The result: the sine of the frequency scale, broadcast along the features, times the feature projection. -/
def st_out (x : (⟨S2x16384x256, .f32⟩ : BufTy).Contents (Elt F)) (q : (⟨S2x16384x3, .f32⟩ : BufTy).Contents (Elt F)) (ac : (⟨S2x1024x3, .f32⟩ : BufTy).Contents (Elt F)) (W : (⟨S256x256, .f32⟩ : BufTy).Contents (Elt F)) (b : (⟨S256, .f32⟩ : BufTy).Contents (Elt F))
    (fw1 : (⟨S16x3, .f32⟩ : BufTy).Contents (Elt F)) (fb1 : (⟨S16, .f32⟩ : BufTy).Contents (Elt F)) (fw2 : (⟨S1x16, .f32⟩ : BufTy).Contents (Elt F)) (fb2 : (⟨S1, .f32⟩ : BufTy).Contents (Elt F)) : (⟨S2x16384x256, .f32⟩ : BufTy).Contents (Elt F) :=
  Host.sin (mulf (broadcastInDim S2x16384x256 ![0, 1, 2] bcast_S2x16384x1_S2x16384x256_0_1_2 (st_v33 q ac fw1 fb1 fw2 fb2)) (st_v3 x W b))

/-! ## The run, read back -/

set_option maxRecDepth 8192 in
set_option maxHeartbeats 1600000 in
/-- The fold of the operations at the result buffer is the last stage of the arguments' contents: each
    operation's value is read at its own result buffer and passed over at every other, and what is left is the
    stages' definitions unfolded. -/
theorem out_eq (V : Valuation τ sig (Elt F)) :
    after ops V (main_v36 : DevRef τ sig)
      = st_out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-- No operation writes argument 0. -/
theorem arg0_eq (V : Valuation τ sig (Elt F)) :
    after ops V (main_arg0 : DevRef τ sig) = V (main_arg0 : DevRef τ sig) := by
  after_results_simp

/-- No operation writes argument 1. -/
theorem arg1_eq (V : Valuation τ sig (Elt F)) :
    after ops V (main_arg1 : DevRef τ sig) = V (main_arg1 : DevRef τ sig) := by
  after_results_simp

/-- No operation writes argument 2. -/
theorem arg2_eq (V : Valuation τ sig (Elt F)) :
    after ops V (main_arg2 : DevRef τ sig) = V (main_arg2 : DevRef τ sig) := by
  after_results_simp

/-- No operation writes argument 3. -/
theorem arg3_eq (V : Valuation τ sig (Elt F)) :
    after ops V (main_arg3 : DevRef τ sig) = V (main_arg3 : DevRef τ sig) := by
  after_results_simp

/-- No operation writes argument 4. -/
theorem arg4_eq (V : Valuation τ sig (Elt F)) :
    after ops V (main_arg4 : DevRef τ sig) = V (main_arg4 : DevRef τ sig) := by
  after_results_simp

/-- No operation writes argument 5. -/
theorem arg5_eq (V : Valuation τ sig (Elt F)) :
    after ops V (main_arg5 : DevRef τ sig) = V (main_arg5 : DevRef τ sig) := by
  after_results_simp

/-- No operation writes argument 6. -/
theorem arg6_eq (V : Valuation τ sig (Elt F)) :
    after ops V (main_arg6 : DevRef τ sig) = V (main_arg6 : DevRef τ sig) := by
  after_results_simp

/-- No operation writes argument 7. -/
theorem arg7_eq (V : Valuation τ sig (Elt F)) :
    after ops V (main_arg7 : DevRef τ sig) = V (main_arg7 : DevRef τ sig) := by
  after_results_simp

/-- No operation writes argument 8. -/
theorem arg8_eq (V : Valuation τ sig (Elt F)) :
    after ops V (main_arg8 : DevRef τ sig) = V (main_arg8 : DevRef τ sig) := by
  after_results_simp

/-- On every device, for any float values, from any memory with zero counters: every weakly fair execution
    of @main terminates with the result buffer at the last stage of the argument arrays, and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = st_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v36).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefRun

end
-- ==== Proof.RefRead.lean ====
import proofs.«155118_j31817117728925_1_alg».proof.Proof.RefRun
import proofs.«155118_j31817117728925_1_alg».proof.Proof.Spec
import Idealize.ShloMosaic.Lib.ValueIdx
import Idealize.ShloMosaic.Lib.Pipeline.Value
import Idealize.ShloMosaic.PureOps.Ideal.Laws

/-! # The reference's stages on the extended reals, entry by entry

Each stage of the reference's run, read at an index with the float values the extended reals and every
operation exact, is the corresponding function of the specification: the contractions are sums over the
contracted coordinate, the broadcasts read the operand at the kept coordinates, the elementwise operations
act on the entries, the sum over the three coordinates and the minimum over the atoms are the finite sum
and the fold of min. -/

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## The three contractions -/

/-- Axis 0 of the left operand's index is a free axis: it reads coordinate 0 of the result index. -/
theorem lhs0_0 (i : S2x16384x256.Idx) (q : dot_S2x16384x256_S256x256_S2x16384x256_2_1_01_0_n_n.contr.Idx) :
    (dot_S2x16384x256_S256x256_S2x16384x256_2_1_01_0_n_n.lhsIdx i q 0).val = (i 0).val := by
  unfold DotDims.lhsIdx
  rw [dif_neg (show ¬(0 : Fin S2x16384x256.rank) ∈ dot_S2x16384x256_S256x256_S2x16384x256_2_1_01_0_n_n.lhsBatch by decide), dif_pos (show (0 : Fin S2x16384x256.rank) ∈ dot_S2x16384x256_S256x256_S2x16384x256_2_1_01_0_n_n.lhsNonContracting by decide)]
  rfl
/-- Axis 1 of the left operand's index is a free axis: it reads coordinate 1 of the result index. -/
theorem lhs0_1 (i : S2x16384x256.Idx) (q : dot_S2x16384x256_S256x256_S2x16384x256_2_1_01_0_n_n.contr.Idx) :
    (dot_S2x16384x256_S256x256_S2x16384x256_2_1_01_0_n_n.lhsIdx i q 1).val = (i 1).val := by
  unfold DotDims.lhsIdx
  rw [dif_neg (show ¬(1 : Fin S2x16384x256.rank) ∈ dot_S2x16384x256_S256x256_S2x16384x256_2_1_01_0_n_n.lhsBatch by decide), dif_pos (show (1 : Fin S2x16384x256.rank) ∈ dot_S2x16384x256_S256x256_S2x16384x256_2_1_01_0_n_n.lhsNonContracting by decide)]
  rfl
/-- Axis 2 of the left operand's index is the contracted axis: it reads the contraction index's one coordinate. -/
theorem lhs0_2 (i : S2x16384x256.Idx) (q : dot_S2x16384x256_S256x256_S2x16384x256_2_1_01_0_n_n.contr.Idx) :
    (dot_S2x16384x256_S256x256_S2x16384x256_2_1_01_0_n_n.lhsIdx i q 2).val = (q ⟨0, by decide⟩).val :=
  dot_S2x16384x256_S256x256_S2x16384x256_2_1_01_0_n_n.lhsIdx_val_of_single rfl i q
/-- Axis 0 of the right operand's index is a free axis: it reads coordinate 2 of the result index. -/
theorem rhs0_0 (i : S2x16384x256.Idx) (q : dot_S2x16384x256_S256x256_S2x16384x256_2_1_01_0_n_n.contr.Idx) :
    (dot_S2x16384x256_S256x256_S2x16384x256_2_1_01_0_n_n.rhsIdx i q 0).val = (i 2).val := by
  unfold DotDims.rhsIdx
  rw [dif_neg (show ¬(0 : Fin S256x256.rank) ∈ dot_S2x16384x256_S256x256_S2x16384x256_2_1_01_0_n_n.rhsBatch by decide), dif_pos (show (0 : Fin S256x256.rank) ∈ dot_S2x16384x256_S256x256_S2x16384x256_2_1_01_0_n_n.rhsNonContracting by decide)]
  rfl
/-- Axis 1 of the right operand's index is the contracted axis: it reads the contraction index's one coordinate. -/
theorem rhs0_1 (i : S2x16384x256.Idx) (q : dot_S2x16384x256_S256x256_S2x16384x256_2_1_01_0_n_n.contr.Idx) :
    (dot_S2x16384x256_S256x256_S2x16384x256_2_1_01_0_n_n.rhsIdx i q 1).val = (q ⟨0, by decide⟩).val :=
  dot_S2x16384x256_S256x256_S2x16384x256_2_1_01_0_n_n.rhsIdx_val_of_single rfl i q

/-- On the extended reals the contraction at (b, n, o) is the sum over the contracted coordinate of the
    left operand at (b, n, k) times the right operand at (o, k). -/
theorem dot0_apply (x : (⟨S2x16384x256, .f32⟩ : BufTy).Contents (Elt Ideal)) (y : (⟨S256x256, .f32⟩ : BufTy).Contents (Elt Ideal)) (b : Fin 2) (n : Fin 16384) (o : Fin 256) :
    Host.dotGeneral (F := Ideal) (φ₁ := .f32) (φ₂ := .f32) dot_S2x16384x256_S256x256_S2x16384x256_2_1_01_0_n_n none x y (ix3 b n o) = ∑ k : Fin 256, x (ix3 b n k) * y (ix2 o k) := by
  simp only [Host.dotGeneral]
  rw [Ideal.dotGeneral_apply, ← Equiv.sum_comp (ValueIdx.contrEquiv1 dot_S2x16384x256_S256x256_S2x16384x256_2_1_01_0_n_n 256 rfl rfl).symm]
  refine Finset.sum_congr rfl fun k _ => ?_
  have hk := ValueIdx.contrEquiv1_symm_val dot_S2x16384x256_S256x256_S2x16384x256_2_1_01_0_n_n 256 rfl rfl k
  have el : dot_S2x16384x256_S256x256_S2x16384x256_2_1_01_0_n_n.lhsIdx (ix3 b n o) ((ValueIdx.contrEquiv1 dot_S2x16384x256_S256x256_S2x16384x256_2_1_01_0_n_n 256 rfl rfl).symm k) = ix3 b n k := funext fun a => Fin.ext (by
    match a with
    | ⟨0, _⟩ => exact lhs0_0 _ _
    | ⟨1, _⟩ => exact lhs0_1 _ _
    | ⟨2, _⟩ => exact (lhs0_2 _ _).trans hk)
  have er : dot_S2x16384x256_S256x256_S2x16384x256_2_1_01_0_n_n.rhsIdx (ix3 b n o) ((ValueIdx.contrEquiv1 dot_S2x16384x256_S256x256_S2x16384x256_2_1_01_0_n_n 256 rfl rfl).symm k) = ix2 o k := funext fun a => Fin.ext (by
    match a with
    | ⟨0, _⟩ => exact rhs0_0 _ _
    | ⟨1, _⟩ => exact (rhs0_1 _ _).trans hk)
  rw [el, er]

/-- Axis 0 of the left operand's index is a free axis: it reads coordinate 0 of the result index. -/
theorem lhs1_0 (i : S2x16384x16.Idx) (q : dot_S2x16384x3_S16x3_S2x16384x16_2_1_01_0_n_n.contr.Idx) :
    (dot_S2x16384x3_S16x3_S2x16384x16_2_1_01_0_n_n.lhsIdx i q 0).val = (i 0).val := by
  unfold DotDims.lhsIdx
  rw [dif_neg (show ¬(0 : Fin S2x16384x3.rank) ∈ dot_S2x16384x3_S16x3_S2x16384x16_2_1_01_0_n_n.lhsBatch by decide), dif_pos (show (0 : Fin S2x16384x3.rank) ∈ dot_S2x16384x3_S16x3_S2x16384x16_2_1_01_0_n_n.lhsNonContracting by decide)]
  rfl
/-- Axis 1 of the left operand's index is a free axis: it reads coordinate 1 of the result index. -/
theorem lhs1_1 (i : S2x16384x16.Idx) (q : dot_S2x16384x3_S16x3_S2x16384x16_2_1_01_0_n_n.contr.Idx) :
    (dot_S2x16384x3_S16x3_S2x16384x16_2_1_01_0_n_n.lhsIdx i q 1).val = (i 1).val := by
  unfold DotDims.lhsIdx
  rw [dif_neg (show ¬(1 : Fin S2x16384x3.rank) ∈ dot_S2x16384x3_S16x3_S2x16384x16_2_1_01_0_n_n.lhsBatch by decide), dif_pos (show (1 : Fin S2x16384x3.rank) ∈ dot_S2x16384x3_S16x3_S2x16384x16_2_1_01_0_n_n.lhsNonContracting by decide)]
  rfl
/-- Axis 2 of the left operand's index is the contracted axis: it reads the contraction index's one coordinate. -/
theorem lhs1_2 (i : S2x16384x16.Idx) (q : dot_S2x16384x3_S16x3_S2x16384x16_2_1_01_0_n_n.contr.Idx) :
    (dot_S2x16384x3_S16x3_S2x16384x16_2_1_01_0_n_n.lhsIdx i q 2).val = (q ⟨0, by decide⟩).val :=
  dot_S2x16384x3_S16x3_S2x16384x16_2_1_01_0_n_n.lhsIdx_val_of_single rfl i q
/-- Axis 0 of the right operand's index is a free axis: it reads coordinate 2 of the result index. -/
theorem rhs1_0 (i : S2x16384x16.Idx) (q : dot_S2x16384x3_S16x3_S2x16384x16_2_1_01_0_n_n.contr.Idx) :
    (dot_S2x16384x3_S16x3_S2x16384x16_2_1_01_0_n_n.rhsIdx i q 0).val = (i 2).val := by
  unfold DotDims.rhsIdx
  rw [dif_neg (show ¬(0 : Fin S16x3.rank) ∈ dot_S2x16384x3_S16x3_S2x16384x16_2_1_01_0_n_n.rhsBatch by decide), dif_pos (show (0 : Fin S16x3.rank) ∈ dot_S2x16384x3_S16x3_S2x16384x16_2_1_01_0_n_n.rhsNonContracting by decide)]
  rfl
/-- Axis 1 of the right operand's index is the contracted axis: it reads the contraction index's one coordinate. -/
theorem rhs1_1 (i : S2x16384x16.Idx) (q : dot_S2x16384x3_S16x3_S2x16384x16_2_1_01_0_n_n.contr.Idx) :
    (dot_S2x16384x3_S16x3_S2x16384x16_2_1_01_0_n_n.rhsIdx i q 1).val = (q ⟨0, by decide⟩).val :=
  dot_S2x16384x3_S16x3_S2x16384x16_2_1_01_0_n_n.rhsIdx_val_of_single rfl i q

/-- On the extended reals the contraction at (b, n, o) is the sum over the contracted coordinate of the
    left operand at (b, n, k) times the right operand at (o, k). -/
theorem dot1_apply (x : (⟨S2x16384x3, .f32⟩ : BufTy).Contents (Elt Ideal)) (y : (⟨S16x3, .f32⟩ : BufTy).Contents (Elt Ideal)) (b : Fin 2) (n : Fin 16384) (o : Fin 16) :
    Host.dotGeneral (F := Ideal) (φ₁ := .f32) (φ₂ := .f32) dot_S2x16384x3_S16x3_S2x16384x16_2_1_01_0_n_n none x y (ix3 b n o) = ∑ k : Fin 3, x (ix3 b n k) * y (ix2 o k) := by
  simp only [Host.dotGeneral]
  rw [Ideal.dotGeneral_apply, ← Equiv.sum_comp (ValueIdx.contrEquiv1 dot_S2x16384x3_S16x3_S2x16384x16_2_1_01_0_n_n 3 rfl rfl).symm]
  refine Finset.sum_congr rfl fun k _ => ?_
  have hk := ValueIdx.contrEquiv1_symm_val dot_S2x16384x3_S16x3_S2x16384x16_2_1_01_0_n_n 3 rfl rfl k
  have el : dot_S2x16384x3_S16x3_S2x16384x16_2_1_01_0_n_n.lhsIdx (ix3 b n o) ((ValueIdx.contrEquiv1 dot_S2x16384x3_S16x3_S2x16384x16_2_1_01_0_n_n 3 rfl rfl).symm k) = ix3 b n k := funext fun a => Fin.ext (by
    match a with
    | ⟨0, _⟩ => exact lhs1_0 _ _
    | ⟨1, _⟩ => exact lhs1_1 _ _
    | ⟨2, _⟩ => exact (lhs1_2 _ _).trans hk)
  have er : dot_S2x16384x3_S16x3_S2x16384x16_2_1_01_0_n_n.rhsIdx (ix3 b n o) ((ValueIdx.contrEquiv1 dot_S2x16384x3_S16x3_S2x16384x16_2_1_01_0_n_n 3 rfl rfl).symm k) = ix2 o k := funext fun a => Fin.ext (by
    match a with
    | ⟨0, _⟩ => exact rhs1_0 _ _
    | ⟨1, _⟩ => exact (rhs1_1 _ _).trans hk)
  rw [el, er]

/-- Axis 0 of the left operand's index is a free axis: it reads coordinate 0 of the result index. -/
theorem lhs2_0 (i : S2x16384x1.Idx) (q : dot_S2x16384x16_S1x16_S2x16384x1_2_1_01_0_n_n.contr.Idx) :
    (dot_S2x16384x16_S1x16_S2x16384x1_2_1_01_0_n_n.lhsIdx i q 0).val = (i 0).val := by
  unfold DotDims.lhsIdx
  rw [dif_neg (show ¬(0 : Fin S2x16384x16.rank) ∈ dot_S2x16384x16_S1x16_S2x16384x1_2_1_01_0_n_n.lhsBatch by decide), dif_pos (show (0 : Fin S2x16384x16.rank) ∈ dot_S2x16384x16_S1x16_S2x16384x1_2_1_01_0_n_n.lhsNonContracting by decide)]
  rfl
/-- Axis 1 of the left operand's index is a free axis: it reads coordinate 1 of the result index. -/
theorem lhs2_1 (i : S2x16384x1.Idx) (q : dot_S2x16384x16_S1x16_S2x16384x1_2_1_01_0_n_n.contr.Idx) :
    (dot_S2x16384x16_S1x16_S2x16384x1_2_1_01_0_n_n.lhsIdx i q 1).val = (i 1).val := by
  unfold DotDims.lhsIdx
  rw [dif_neg (show ¬(1 : Fin S2x16384x16.rank) ∈ dot_S2x16384x16_S1x16_S2x16384x1_2_1_01_0_n_n.lhsBatch by decide), dif_pos (show (1 : Fin S2x16384x16.rank) ∈ dot_S2x16384x16_S1x16_S2x16384x1_2_1_01_0_n_n.lhsNonContracting by decide)]
  rfl
/-- Axis 2 of the left operand's index is the contracted axis: it reads the contraction index's one coordinate. -/
theorem lhs2_2 (i : S2x16384x1.Idx) (q : dot_S2x16384x16_S1x16_S2x16384x1_2_1_01_0_n_n.contr.Idx) :
    (dot_S2x16384x16_S1x16_S2x16384x1_2_1_01_0_n_n.lhsIdx i q 2).val = (q ⟨0, by decide⟩).val :=
  dot_S2x16384x16_S1x16_S2x16384x1_2_1_01_0_n_n.lhsIdx_val_of_single rfl i q
/-- Axis 0 of the right operand's index is a free axis: it reads coordinate 2 of the result index. -/
theorem rhs2_0 (i : S2x16384x1.Idx) (q : dot_S2x16384x16_S1x16_S2x16384x1_2_1_01_0_n_n.contr.Idx) :
    (dot_S2x16384x16_S1x16_S2x16384x1_2_1_01_0_n_n.rhsIdx i q 0).val = (i 2).val := by
  unfold DotDims.rhsIdx
  rw [dif_neg (show ¬(0 : Fin S1x16.rank) ∈ dot_S2x16384x16_S1x16_S2x16384x1_2_1_01_0_n_n.rhsBatch by decide), dif_pos (show (0 : Fin S1x16.rank) ∈ dot_S2x16384x16_S1x16_S2x16384x1_2_1_01_0_n_n.rhsNonContracting by decide)]
  rfl
/-- Axis 1 of the right operand's index is the contracted axis: it reads the contraction index's one coordinate. -/
theorem rhs2_1 (i : S2x16384x1.Idx) (q : dot_S2x16384x16_S1x16_S2x16384x1_2_1_01_0_n_n.contr.Idx) :
    (dot_S2x16384x16_S1x16_S2x16384x1_2_1_01_0_n_n.rhsIdx i q 1).val = (q ⟨0, by decide⟩).val :=
  dot_S2x16384x16_S1x16_S2x16384x1_2_1_01_0_n_n.rhsIdx_val_of_single rfl i q

/-- On the extended reals the contraction at (b, n, o) is the sum over the contracted coordinate of the
    left operand at (b, n, k) times the right operand at (o, k). -/
theorem dot2_apply (x : (⟨S2x16384x16, .f32⟩ : BufTy).Contents (Elt Ideal)) (y : (⟨S1x16, .f32⟩ : BufTy).Contents (Elt Ideal)) (b : Fin 2) (n : Fin 16384) (o : Fin 1) :
    Host.dotGeneral (F := Ideal) (φ₁ := .f32) (φ₂ := .f32) dot_S2x16384x16_S1x16_S2x16384x1_2_1_01_0_n_n none x y (ix3 b n o) = ∑ k : Fin 16, x (ix3 b n k) * y (ix2 o k) := by
  simp only [Host.dotGeneral]
  rw [Ideal.dotGeneral_apply, ← Equiv.sum_comp (ValueIdx.contrEquiv1 dot_S2x16384x16_S1x16_S2x16384x1_2_1_01_0_n_n 16 rfl rfl).symm]
  refine Finset.sum_congr rfl fun k _ => ?_
  have hk := ValueIdx.contrEquiv1_symm_val dot_S2x16384x16_S1x16_S2x16384x1_2_1_01_0_n_n 16 rfl rfl k
  have el : dot_S2x16384x16_S1x16_S2x16384x1_2_1_01_0_n_n.lhsIdx (ix3 b n o) ((ValueIdx.contrEquiv1 dot_S2x16384x16_S1x16_S2x16384x1_2_1_01_0_n_n 16 rfl rfl).symm k) = ix3 b n k := funext fun a => Fin.ext (by
    match a with
    | ⟨0, _⟩ => exact lhs2_0 _ _
    | ⟨1, _⟩ => exact lhs2_1 _ _
    | ⟨2, _⟩ => exact (lhs2_2 _ _).trans hk)
  have er : dot_S2x16384x16_S1x16_S2x16384x1_2_1_01_0_n_n.rhsIdx (ix3 b n o) ((ValueIdx.contrEquiv1 dot_S2x16384x16_S1x16_S2x16384x1_2_1_01_0_n_n 16 rfl rfl).symm k) = ix2 o k := funext fun a => Fin.ext (by
    match a with
    | ⟨0, _⟩ => exact rhs2_0 _ _
    | ⟨1, _⟩ => exact (rhs2_1 _ _).trans hk)
  rw [el, er]

/-! ## The broadcasts -/

/-- The bias broadcast along the batch and the query axes, read at (b, n, o), is the bias at o. -/
theorem bias0_apply (v : (⟨S256, .f32⟩ : BufTy).Contents (Elt Ideal)) (b : Fin 2) (n : Fin 16384) (o : Fin 256) :
    broadcastInDim S2x16384x256 ![0, 1, 2] bcast_S1x1x256_S2x16384x256_0_1_2 (broadcastInDim S1x1x256 ![2] bcast_S256_S1x1x256_2 v) (ix3 b n o) = v (ix1 o) :=
  (broadcastInDim_apply (s := S1x1x256) (t := S2x16384x256) ![0, 1, 2] bcast_S1x1x256_S2x16384x256_0_1_2 _ (ix3 b n o) (ix3 (0 : Fin 1) (0 : Fin 1) o)
    (fun c => by match c with | ⟨0, _⟩ => rfl | ⟨1, _⟩ => rfl | ⟨2, _⟩ => rfl)).trans
  (broadcastInDim_apply (s := S256) (t := S1x1x256) ![2] bcast_S256_S1x1x256_2 v (ix3 (0 : Fin 1) (0 : Fin 1) o) (ix1 o)
    (fun c => by match c with | ⟨0, _⟩ => rfl))

/-- The bias broadcast along the batch and the query axes, read at (b, n, o), is the bias at o. -/
theorem bias1_apply (v : (⟨S16, .f32⟩ : BufTy).Contents (Elt Ideal)) (b : Fin 2) (n : Fin 16384) (o : Fin 16) :
    broadcastInDim S2x16384x16 ![0, 1, 2] bcast_S1x1x16_S2x16384x16_0_1_2 (broadcastInDim S1x1x16 ![2] bcast_S16_S1x1x16_2 v) (ix3 b n o) = v (ix1 o) :=
  (broadcastInDim_apply (s := S1x1x16) (t := S2x16384x16) ![0, 1, 2] bcast_S1x1x16_S2x16384x16_0_1_2 _ (ix3 b n o) (ix3 (0 : Fin 1) (0 : Fin 1) o)
    (fun c => by match c with | ⟨0, _⟩ => rfl | ⟨1, _⟩ => rfl | ⟨2, _⟩ => rfl)).trans
  (broadcastInDim_apply (s := S16) (t := S1x1x16) ![2] bcast_S16_S1x1x16_2 v (ix3 (0 : Fin 1) (0 : Fin 1) o) (ix1 o)
    (fun c => by match c with | ⟨0, _⟩ => rfl))

/-- The one-entry bias broadcast along the batch and the query axes, read at (b, n, 0), is its entry. -/
theorem bias2_apply (v : (⟨S1, .f32⟩ : BufTy).Contents (Elt Ideal)) (b : Fin 2) (n : Fin 16384) :
    broadcastInDim S2x16384x1 ![0, 1, 2] bcast_S1x1x1_S2x16384x1_0_1_2 (broadcastInDim S1x1x1 ![2] bcast_S1_S1x1x1_2 v) (ix3 b n (0 : Fin 1))
      = v (ix1 (0 : Fin 1)) :=
  (broadcastInDim_apply (s := S1x1x1) (t := S2x16384x1) ![0, 1, 2] bcast_S1x1x1_S2x16384x1_0_1_2 _ (ix3 b n (0 : Fin 1))
    (ix3 (0 : Fin 1) (0 : Fin 1) (0 : Fin 1)) (fun c => by match c with | ⟨0, _⟩ => rfl | ⟨1, _⟩ => rfl | ⟨2, _⟩ => rfl)).trans
  (broadcastInDim_apply (s := S1) (t := S1x1x1) ![2] bcast_S1_S1x1x1_2 v (ix3 (0 : Fin 1) (0 : Fin 1) (0 : Fin 1)) (ix1 (0 : Fin 1))
    (fun c => by match c with | ⟨0, _⟩ => rfl))

/-- The queries broadcast along the atoms, read at (b, n, a, d), are the query's coordinate d. -/
theorem bq_apply (v : (⟨S2x16384x3, .f32⟩ : BufTy).Contents (Elt Ideal)) (b : Fin 2) (n : Fin 16384) (a : Fin 1024) (d : Fin 3) :
    broadcastInDim S2x16384x1024x3 ![0, 1, 2, 3] bcast_S2x16384x1x3_S2x16384x1024x3_0_1_2_3
        (broadcastInDim S2x16384x1x3 ![0, 1, 3] bcast_S2x16384x3_S2x16384x1x3_0_1_3 v) (ix4 b n a d) = v (ix3 b n d) :=
  (broadcastInDim_apply (s := S2x16384x1x3) (t := S2x16384x1024x3) ![0, 1, 2, 3] bcast_S2x16384x1x3_S2x16384x1024x3_0_1_2_3 _
    (ix4 b n a d) (ix4 b n (0 : Fin 1) d) (fun c => by match c with | ⟨0, _⟩ => rfl | ⟨1, _⟩ => rfl | ⟨2, _⟩ => rfl | ⟨3, _⟩ => rfl)).trans
  (broadcastInDim_apply (s := S2x16384x3) (t := S2x16384x1x3) ![0, 1, 3] bcast_S2x16384x3_S2x16384x1x3_0_1_3 v
    (ix4 b n (0 : Fin 1) d) (ix3 b n d) (fun c => by match c with | ⟨0, _⟩ => rfl | ⟨1, _⟩ => rfl | ⟨2, _⟩ => rfl))

/-- The atoms broadcast along the queries, read at (b, n, a, d), are the atom's coordinate d. -/
theorem ba_apply (v : (⟨S2x1024x3, .f32⟩ : BufTy).Contents (Elt Ideal)) (b : Fin 2) (n : Fin 16384) (a : Fin 1024) (d : Fin 3) :
    broadcastInDim S2x16384x1024x3 ![0, 1, 2, 3] bcast_S2x1x1024x3_S2x16384x1024x3_0_1_2_3
        (broadcastInDim S2x1x1024x3 ![0, 2, 3] bcast_S2x1024x3_S2x1x1024x3_0_2_3 v) (ix4 b n a d) = v (ix3 b a d) :=
  (broadcastInDim_apply (s := S2x1x1024x3) (t := S2x16384x1024x3) ![0, 1, 2, 3] bcast_S2x1x1024x3_S2x16384x1024x3_0_1_2_3 _
    (ix4 b n a d) (ix4 b (0 : Fin 1) a d) (fun c => by match c with | ⟨0, _⟩ => rfl | ⟨1, _⟩ => rfl | ⟨2, _⟩ => rfl | ⟨3, _⟩ => rfl)).trans
  (broadcastInDim_apply (s := S2x1024x3) (t := S2x1x1024x3) ![0, 2, 3] bcast_S2x1024x3_S2x1x1024x3_0_2_3 v
    (ix4 b (0 : Fin 1) a d) (ix3 b a d) (fun c => by match c with | ⟨0, _⟩ => rfl | ⟨1, _⟩ => rfl | ⟨2, _⟩ => rfl))

/-- A per-query value given a trailing unit axis, read at (b, n, 0), is the value at (b, n). -/
theorem unit_apply (v : (⟨S2x16384, .f32⟩ : BufTy).Contents (Elt Ideal)) (b : Fin 2) (n : Fin 16384) (z : Fin 1) :
    broadcastInDim S2x16384x1 ![0, 1] bcast_S2x16384_S2x16384x1_0_1 v (ix3 b n z) = v (ix2 b n) :=
  broadcastInDim_apply (s := S2x16384) (t := S2x16384x1) ![0, 1] bcast_S2x16384_S2x16384x1_0_1 v (ix3 b n z) (ix2 b n)
    (fun c => by match c with | ⟨0, _⟩ => rfl | ⟨1, _⟩ => rfl)

/-- A per-query value broadcast along the features, read at (b, n, o), is the value at (b, n, 0). -/
theorem feat_apply (v : (⟨S2x16384x1, .f32⟩ : BufTy).Contents (Elt Ideal)) (b : Fin 2) (n : Fin 16384) (o : Fin 256) :
    broadcastInDim S2x16384x256 ![0, 1, 2] bcast_S2x16384x1_S2x16384x256_0_1_2 v (ix3 b n o) = v (ix3 b n (0 : Fin 1)) :=
  broadcastInDim_apply (s := S2x16384x1) (t := S2x16384x256) ![0, 1, 2] bcast_S2x16384x1_S2x16384x256_0_1_2 v (ix3 b n o)
    (ix3 b n (0 : Fin 1)) (fun c => by match c with | ⟨0, _⟩ => rfl | ⟨1, _⟩ => rfl | ⟨2, _⟩ => rfl)

/-! ## The elementwise functions -/

/-- The softplus of an array at an entry is the specification's softplus of the entry. -/
theorem softplusOf_apply (a : (⟨S2x16384x16, .f32⟩ : BufTy).Contents (Elt Ideal)) (i : S2x16384x16.Idx) :
    softplusOf (F := Ideal) a i = Cert.Spec.softplus (a i) := rfl

/-- The clip of an array at an entry is the specification's clip of the entry. -/
theorem clipOf_apply (a : (⟨S2x16384x1, .f32⟩ : BufTy).Contents (Elt Ideal)) (i : S2x16384x1.Idx) :
    clipOf (F := Ideal) a i = Cert.Spec.clip (a i) := rfl

/-- The replacement of non-numbers and infinities at an entry is the specification's, of the entry. -/
theorem nanToNumOf_apply (a : (⟨S2x16384x1, .f32⟩ : BufTy).Contents (Elt Ideal)) (i : S2x16384x1.Idx) :
    nanToNumOf (F := Ideal) a i = Cert.Spec.nn (a i) := rfl

/-! ## The stages -/

/-- The feature projection at (b, n, o). -/
theorem st_v3_apply (x : (⟨S2x16384x256, .f32⟩ : BufTy).Contents (Elt Ideal)) (W : (⟨S256x256, .f32⟩ : BufTy).Contents (Elt Ideal)) (bias : (⟨S256, .f32⟩ : BufTy).Contents (Elt Ideal))
    (b : Fin 2) (n : Fin 16384) (o : Fin 256) :
    st_v3 (F := Ideal) x W bias (ix3 b n o) = Cert.Spec.pre x W bias b n o := by
  rw [Cert.Spec.pre_eq]
  unfold st_v3
  rw [addf_apply, dot0_apply, bias0_apply]

/-- The hidden layer before its activation at (b, n, j). -/
theorem st_v7_apply (q : (⟨S2x16384x3, .f32⟩ : BufTy).Contents (Elt Ideal)) (fw1 : (⟨S16x3, .f32⟩ : BufTy).Contents (Elt Ideal)) (fb1 : (⟨S16, .f32⟩ : BufTy).Contents (Elt Ideal))
    (b : Fin 2) (n : Fin 16384) (j : Fin 16) :
    st_v7 (F := Ideal) q fw1 fb1 (ix3 b n j) = Cert.Spec.hid q fw1 fb1 b n j := by
  rw [Cert.Spec.hid_eq]
  unfold st_v7
  rw [addf_apply, dot1_apply, bias1_apply]

/-- The hidden layer at (b, n, j). -/
theorem st_v8_apply (q : (⟨S2x16384x3, .f32⟩ : BufTy).Contents (Elt Ideal)) (fw1 : (⟨S16x3, .f32⟩ : BufTy).Contents (Elt Ideal)) (fb1 : (⟨S16, .f32⟩ : BufTy).Contents (Elt Ideal))
    (b : Fin 2) (n : Fin 16384) (j : Fin 16) :
    st_v8 (F := Ideal) q fw1 fb1 (ix3 b n j) = Cert.Spec.softplus (Cert.Spec.hid q fw1 fb1 b n j) := by
  unfold st_v8
  rw [softplusOf_apply, st_v7_apply]

/-- The amplitude before clipping at (b, n, 0). -/
theorem st_v12_apply (q : (⟨S2x16384x3, .f32⟩ : BufTy).Contents (Elt Ideal)) (fw1 : (⟨S16x3, .f32⟩ : BufTy).Contents (Elt Ideal)) (fb1 : (⟨S16, .f32⟩ : BufTy).Contents (Elt Ideal)) (fw2 : (⟨S1x16, .f32⟩ : BufTy).Contents (Elt Ideal)) (fb2 : (⟨S1, .f32⟩ : BufTy).Contents (Elt Ideal))
    (b : Fin 2) (n : Fin 16384) :
    st_v12 (F := Ideal) q fw1 fb1 fw2 fb2 (ix3 b n (0 : Fin 1)) = Cert.Spec.lsc q fw1 fb1 fw2 fb2 b n := by
  rw [Cert.Spec.lsc_eq]
  unfold st_v12
  rw [addf_apply, dot2_apply, bias2_apply]
  exact congrArg (· + fb2 (ix1 (0 : Fin 1))) (Finset.sum_congr rfl fun j _ => by rw [st_v8_apply])

/-- The clipped and cleaned amplitude at (b, n, 0). -/
theorem st_v14_apply (q : (⟨S2x16384x3, .f32⟩ : BufTy).Contents (Elt Ideal)) (fw1 : (⟨S16x3, .f32⟩ : BufTy).Contents (Elt Ideal)) (fb1 : (⟨S16, .f32⟩ : BufTy).Contents (Elt Ideal)) (fw2 : (⟨S1x16, .f32⟩ : BufTy).Contents (Elt Ideal)) (fb2 : (⟨S1, .f32⟩ : BufTy).Contents (Elt Ideal))
    (b : Fin 2) (n : Fin 16384) :
    st_v14 (F := Ideal) q fw1 fb1 fw2 fb2 (ix3 b n (0 : Fin 1))
      = Cert.Spec.nn (Cert.Spec.clip (Cert.Spec.lsc q fw1 fb1 fw2 fb2 b n)) := by
  unfold st_v14 st_v13
  rw [nanToNumOf_apply, clipOf_apply, st_v12_apply]

/-- The coordinate difference at (b, n, a, d). -/
theorem st_v19_apply (q : (⟨S2x16384x3, .f32⟩ : BufTy).Contents (Elt Ideal)) (ac : (⟨S2x1024x3, .f32⟩ : BufTy).Contents (Elt Ideal)) (b : Fin 2) (n : Fin 16384) (a : Fin 1024) (d : Fin 3) :
    st_v19 (F := Ideal) q ac (ix4 b n a d) = q (ix3 b n d) - ac (ix3 b a d) := by
  unfold st_v19
  rw [subf_apply, bq_apply, ba_apply]

/-- The operand index of the sum over the coordinates: the result index with the coordinate appended. -/
theorem lift21 (h : S2x16384x1024x3.Reduces [3] S2x16384x1024) (b : Fin 2) (n : Fin 16384) (a : Fin 1024) (k : Fin 3) :
    h.lift (ix3 b n a) k = ix4 b n a k :=
  funext fun c => Fin.ext (by match c with | ⟨0, _⟩ => rfl | ⟨1, _⟩ => rfl | ⟨2, _⟩ => rfl | ⟨3, _⟩ => rfl)

/-- The operand index of the minimum over the atoms: the result index with the atom appended. -/
theorem lift25 (h : S2x16384x1024.Reduces [2] S2x16384) (b : Fin 2) (n : Fin 16384) (a : Fin 1024) :
    h.lift (ix2 b n) a = ix3 b n a :=
  funext fun c => Fin.ext (by match c with | ⟨0, _⟩ => rfl | ⟨1, _⟩ => rfl | ⟨2, _⟩ => rfl)

/-- The squared distance at (b, n, a). -/
theorem st_v21_apply (q : (⟨S2x16384x3, .f32⟩ : BufTy).Contents (Elt Ideal)) (ac : (⟨S2x1024x3, .f32⟩ : BufTy).Contents (Elt Ideal)) (b : Fin 2) (n : Fin 16384) (a : Fin 1024) :
    st_v21 (F := Ideal) q ac (ix3 b n a) = Cert.Spec.dist2 q ac b n a := by
  rw [Cert.Spec.dist2_eq]
  unfold st_v21
  simp only [Host.reduceAdd, Ideal.hostReduceAdd_def]
  have h : S2x16384x1024x3.Reduces [3] S2x16384x1024 := by decide
  rw [Ideal.hostReduceAdd_single reducesTo_S2x16384x1024x3_S2x16384x1024_d3 h]
  refine congrArg (_ + ·) (Finset.sum_congr rfl fun k _ => ?_)
  have e : st_v19 (F := Ideal) q ac (h.lift (ix3 b n a) k) = q (ix3 b n k) - ac (ix3 b a k) := by
    rw [lift21 h b n a k]
    exact st_v19_apply q ac b n a k
  rw [mulf_apply, e]

/-- The square root of the floored squared distance at (b, n, a). -/
theorem sqrtFloor_apply (v : (⟨S2x16384x1024, .f32⟩ : BufTy).Contents (Elt Ideal)) (i : S2x16384x1024.Idx) :
    Host.sqrt (F := Ideal) (maximumf v (broadcastInDim S2x16384x1024 ![] bcast_S_S2x16384x1024 (constant S_ .f32 0x38D1B717#32))) i
      = Ideal.sqrt (max (v i) Cert.Spec.EPS) := rfl

/-- The nearest-atom distance at (b, n). -/
theorem st_v25_apply (q : (⟨S2x16384x3, .f32⟩ : BufTy).Contents (Elt Ideal)) (ac : (⟨S2x1024x3, .f32⟩ : BufTy).Contents (Elt Ideal)) (b : Fin 2) (n : Fin 16384) :
    st_v25 (F := Ideal) q ac (ix2 b n) = Cert.Spec.mind q ac b n := by
  rw [Cert.Spec.mind_eq]
  unfold st_v25
  have h : S2x16384x1024.Reduces [2] S2x16384 := by decide
  rw [Host.reduce_eq_fold_single (FloatOps.minimumf (F := Ideal) (φ := .f32)) _ _ reducesTo_S2x16384x1024_S2x16384_d2 h h_S_]
  have hf : (Host.sqrt (F := Ideal) (maximumf (st_v21 (F := Ideal) q ac)
        (broadcastInDim S2x16384x1024 ![] bcast_S_S2x16384x1024 (constant S_ .f32 0x38D1B717#32)))) ∘ h.lift (ix2 b n)
      = fun a : Fin 1024 => Ideal.sqrt (max (Cert.Spec.dist2 q ac b n a) Cert.Spec.EPS) :=
    funext fun a => by
      rw [Function.comp_apply, sqrtFloor_apply, lift25 h b n a]
      exact congrArg (fun t => Ideal.sqrt (max t Cert.Spec.EPS)) (st_v21_apply q ac b n a)
  exact congrArg (fun f => Finset.fold min Cert.Spec.PINF f (Finset.univ : Finset (Fin 1024))) hf

/-- The exponential of an array at an entry. -/
theorem hostExp_apply {s : Shape} (a : FVec Ideal s .f32) (i : s.Idx) : Host.exp a i = Ideal.exp (a i) := rfl
/-- The negation of an array at an entry. -/
theorem hostNegf_apply {s : Shape} (a : FVec Ideal s .f32) (i : s.Idx) : Host.negf a i = -(a i) := rfl
/-- The sine of an array at an entry. -/
theorem hostSin_apply {s : Shape} (a : FVec Ideal s .f32) (i : s.Idx) : Host.sin a i = Ideal.sin (a i) := rfl

/-- The frequency scale at (b, n, 0). -/
theorem st_v33_apply (q : (⟨S2x16384x3, .f32⟩ : BufTy).Contents (Elt Ideal)) (ac : (⟨S2x1024x3, .f32⟩ : BufTy).Contents (Elt Ideal)) (fw1 : (⟨S16x3, .f32⟩ : BufTy).Contents (Elt Ideal)) (fb1 : (⟨S16, .f32⟩ : BufTy).Contents (Elt Ideal)) (fw2 : (⟨S1x16, .f32⟩ : BufTy).Contents (Elt Ideal)) (fb2 : (⟨S1, .f32⟩ : BufTy).Contents (Elt Ideal))
    (b : Fin 2) (n : Fin 16384) :
    st_v33 (F := Ideal) q ac fw1 fb1 fw2 fb2 (ix3 b n (0 : Fin 1)) = Cert.Spec.omega q ac fw1 fb1 fw2 fb2 b n := by
  rw [Cert.Spec.omega_eq]
  unfold st_v33
  rw [mulf_apply, addf_apply, mulf_apply, st_v14_apply, hostExp_apply, hostNegf_apply, unit_apply, st_v25_apply]
  rfl

/-- The result at (b, n, o). -/
theorem st_out_apply (x : (⟨S2x16384x256, .f32⟩ : BufTy).Contents (Elt Ideal)) (q : (⟨S2x16384x3, .f32⟩ : BufTy).Contents (Elt Ideal)) (ac : (⟨S2x1024x3, .f32⟩ : BufTy).Contents (Elt Ideal)) (W : (⟨S256x256, .f32⟩ : BufTy).Contents (Elt Ideal)) (bias : (⟨S256, .f32⟩ : BufTy).Contents (Elt Ideal))
    (fw1 : (⟨S16x3, .f32⟩ : BufTy).Contents (Elt Ideal)) (fb1 : (⟨S16, .f32⟩ : BufTy).Contents (Elt Ideal)) (fw2 : (⟨S1x16, .f32⟩ : BufTy).Contents (Elt Ideal)) (fb2 : (⟨S1, .f32⟩ : BufTy).Contents (Elt Ideal)) (b : Fin 2) (n : Fin 16384) (o : Fin 256) :
    st_out (F := Ideal) x q ac W bias fw1 fb1 fw2 fb2 (ix3 b n o)
      = Ideal.sin (Cert.Spec.omega q ac fw1 fb1 fw2 fb2 b n * Cert.Spec.pre x W bias b n o) := by
  unfold st_out
  rw [hostSin_apply, mulf_apply, feat_apply, st_v33_apply, st_v3_apply]

/-- The reference's result, on the extended reals, is the specification. -/
theorem st_out_eq (x : (⟨S2x16384x256, .f32⟩ : BufTy).Contents (Elt Ideal)) (q : (⟨S2x16384x3, .f32⟩ : BufTy).Contents (Elt Ideal)) (ac : (⟨S2x1024x3, .f32⟩ : BufTy).Contents (Elt Ideal)) (W : (⟨S256x256, .f32⟩ : BufTy).Contents (Elt Ideal)) (b : (⟨S256, .f32⟩ : BufTy).Contents (Elt Ideal))
    (fw1 : (⟨S16x3, .f32⟩ : BufTy).Contents (Elt Ideal)) (fb1 : (⟨S16, .f32⟩ : BufTy).Contents (Elt Ideal)) (fw2 : (⟨S1x16, .f32⟩ : BufTy).Contents (Elt Ideal)) (fb2 : (⟨S1, .f32⟩ : BufTy).Contents (Elt Ideal)) :
    st_out (F := Ideal) x q ac W b fw1 fb1 fw2 fb2 = Cert.Spec.G x q ac W b fw1 fb1 fw2 fb2 := by
  funext i
  obtain ⟨c, n, o, rfl⟩ : ∃ (c : Fin 2) (n : Fin 16384) (o : Fin 256), i = ix3 c n o := ⟨i 0, i 1, i 2, eq_ix3 i⟩
  rw [st_out_apply]
  rfl

end Cert.ReferenceIdeal.RefRead

end
-- ==== Proof.lean ====
/-
  The proof of `Cert.Claim`: the three frames, the (empty) idealization ledger, and the equivalence of the idealized
  kernel and the idealized reference on the extended reals.

  Both programs compute, for batch b, query n and output feature o,
      sin (ω(b, n) · (Σₖ x[b, n, k] · W[o, k] + bias[o])),   ω = 30 · (1 + scale · exp (−distance to the nearest atom)),
  (Proof/Spec.lean). The kernel does it block by block over a 2 × 16 grid, with the squared distances as
  |q|² + |a|² − 2 q·a (one matrix product); the reference does it on whole arrays, with the squared distances as
  Σ_d (q_d − a_d)². The two squared distances agree because the coordinates are real numbers (Proof/Algebra.lean), which
  is where the precondition "every input is finite" is used (Proof/Finite.lean); everything else is the same
  expression on both sides, read at an entry (Proof/KernelPay.lean for the kernel's body, Proof/RefRead.lean for the
  reference), and the kernel's 32 blocks tile the result (Proof/KernelValue.lean). The reference's run is read back
  from its list of host operations (Proof/RefRun.lean).
-/
import proofs.«155118_j31817117728925_1_alg».proof.Defs
import proofs.«155118_j31817117728925_1_alg».proof.Proof.Gen.Kernel
import proofs.«155118_j31817117728925_1_alg».proof.Proof.Gen.Kernel.Frame
import proofs.«155118_j31817117728925_1_alg».proof.Proof.Gen.KernelIdeal
import proofs.«155118_j31817117728925_1_alg».proof.Proof.Gen.KernelIdeal.Frame
import proofs.«155118_j31817117728925_1_alg».proof.Proof.Gen.ReferenceIdeal
import proofs.«155118_j31817117728925_1_alg».proof.Proof.Gen.Pre_finite_inputs
import proofs.«155118_j31817117728925_1_alg».proof.Proof.KernelValue
import proofs.«155118_j31817117728925_1_alg».proof.Proof.RefRun
import proofs.«155118_j31817117728925_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both idealized programs end with the specification of those arguments in
    their result arrays: the kernel by its blocks, the reference by its stages. -/
theorem algebraic : Cert.algebraic_KernelIdeal_ReferenceIdeal := by
  intro m ρ m' ρ' hpre hagree
  refine ⟨_, Cert.KernelValue.run m ρ hpre, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  exact Cert.ReferenceIdeal.RefRead.st_out_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
